-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S100000x256 : Shape := ⟨2, ![100000, 256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel

variable [Facts]

def fn_part1 {F : FTy → Type} [FloatOps F] (main_v13 : IVec S_ 1) (main_v16 : IVec S100000x256 1) : IVec S_ 1 :=
  let main_c_5 : IVec S_ 1 := constantI S_ 1 1#1
  let main_v17 : IVec S_ 1 := (fun x v => Host.reduce IntOp.andi x v reducesTo_S100000x256_S_d0_1 h_S_) main_v16 main_c_5
  let main_v18 : IVec S_ 1 := andi main_v13 main_v17
  main_v18

def fn {F : FTy → Type} [FloatOps F] (main_arg0 : IVec S8192x3 32) (main_arg1 : IVec S8192x3 32) (main_arg2 : FVec F S100000x256 .f32) (main_arg3 : FVec F S100000x256 .f32) (main_arg4 : FVec F S100000x256 .f32) (main_arg5 : FVec F S100000x256 .f32) : IVec S_ 1 :=
  let main_v0 : FVec F S100000x256 .f32 := Host.absf main_arg2
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg3
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S100000x256 .f32 := Host.absf main_arg4
  let main_cst_2 : FVec F S_ .f32 := constant S_ .f32 0x7F800000#32
  let main_v10 : FVec F S100000x256 .f32 := broadcastInDim S100000x256 ![] bcast_S_S100000x256 main_cst_2
  let main_v11 : IVec S100000x256 1 := cmpf .olt main_v9 main_v10
  let main_c_3 : IVec S_ 1 := constantI S_ 1 1#1
  let main_v12 : IVec S_ 1 := (fun x v => Host.reduce IntOp.andi x v reducesTo_S100000x256_S_d0_1 h_S_) main_v11 main_c_3
  let main_v13 : IVec S_ 1 := andi main_v8 main_v12
  let main_v14 : FVec F S100000x256 .f32 := Host.absf main_arg5
  let main_cst_4 : FVec F S_ .f32 := constant S_ .f32 0x7F800000#32
  let main_v15 : FVec F S100000x256 .f32 := broadcastInDim S100000x256 ![] bcast_S_S100000x256 main_cst_4
  let main_v16 : IVec S100000x256 1 := cmpf .olt main_v14 main_v15
  fn_part1 (F := F) main_v13 main_v16
-- ==== Kernel.lean ====
abbrev S8192x3 : Shape := ⟨2, ![8192, 3]⟩
abbrev S100000x256 : Shape := ⟨2, ![100000, 256]⟩
abbrev S8192x1 : Shape := ⟨2, ![8192, 1]⟩
abbrev S8192 : Shape := ⟨1, ![8192]⟩
abbrev S_ : Shape := ⟨0, ![]⟩
abbrev S8192x256 : Shape := ⟨2, ![8192, 256]⟩
abbrev S512x256 : Shape := ⟨2, ![512, 256]⟩
abbrev S512 : Shape := ⟨1, ![512]⟩
abbrev S512x1 : Shape := ⟨2, ![512, 1]⟩

abbrev nBuf : Space → Nat
  | .hbm => 127
  | .vmem => 26
  | .smem => 0
  | _ => 0

abbrev bufTy : (tb : Table) → Fin (tcTables nBuf tb) → BufTy
  | .hbm, ⟨0, _⟩ => ⟨S8192x3, .i32⟩
  | .hbm, ⟨1, _⟩ => ⟨S8192x3, .i32⟩
  | .hbm, ⟨2, _⟩ => ⟨S100000x256, .f32⟩
  | .hbm, ⟨3, _⟩ => ⟨S100000x256, .f32⟩
  | .hbm, ⟨4, _⟩ => ⟨S100000x256, .f32⟩
  | .hbm, ⟨5, _⟩ => ⟨S100000x256, .f32⟩
  | .hbm, ⟨6, _⟩ => ⟨S8192x1, .i32⟩
  | .hbm, ⟨7, _⟩ => ⟨S8192, .i32⟩
  | .hbm, ⟨8, _⟩ => ⟨S8192x1, .i32⟩
  | .hbm, ⟨9, _⟩ => ⟨S8192, .i32⟩
  | .hbm, ⟨10, _⟩ => ⟨S8192x1, .i32⟩
  | .hbm, ⟨11, _⟩ => ⟨S8192, .i32⟩
  | .hbm, ⟨12, _⟩ => ⟨S8192x1, .i32⟩
  | .hbm, ⟨13, _⟩ => ⟨S8192, .i32⟩
  | .hbm, ⟨14, _⟩ => ⟨S8192x1, .i32⟩
  | .hbm, ⟨15, _⟩ => ⟨S8192, .i32⟩
  | .hbm, ⟨16, _⟩ => ⟨S8192x1, .i32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S8192, .i32⟩
  | .hbm, ⟨25, _⟩ => ⟨S8192x1, .i32⟩
  | .hbm, ⟨26, _⟩ => ⟨S8192x256, .f32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S8192x1, .i32⟩
  | .hbm, ⟨35, _⟩ => ⟨S8192x256, .f32⟩
  | .hbm, ⟨36, _⟩ => ⟨S_, .i32⟩
  | .hbm, ⟨37, _⟩ => ⟨S8192, .i32⟩
  | .hbm, ⟨38, _⟩ => ⟨S8192, .i1⟩
  | .hbm, ⟨39, _⟩ => ⟨S_, .i32⟩
  | .hbm, ⟨40, _⟩ => ⟨S8192, .i32⟩
  | .hbm, ⟨41, _⟩ => ⟨S8192, .i32⟩
  | .hbm, ⟨42, _⟩ => ⟨S8192, .i32⟩
  | .hbm, ⟨43, _⟩ => ⟨S8192x1, .i32⟩
  | .hbm, ⟨44, _⟩ => ⟨S8192x256, .f32⟩
  | .hbm, ⟨45, _⟩ => ⟨S_, .i32⟩
  | .hbm, ⟨46, _⟩ => ⟨S8192, .i32⟩
  | .hbm, ⟨47, _⟩ => ⟨S8192, .i1⟩
  | .hbm, ⟨48, _⟩ => ⟨S_, .i32⟩
  | .hbm, ⟨49, _⟩ => ⟨S8192, .i32⟩
  | .hbm, ⟨50, _⟩ => ⟨S8192, .i32⟩
  | .hbm, ⟨51, _⟩ => ⟨S8192, .i32⟩
  | .hbm, ⟨52, _⟩ => ⟨S8192x1, .i32⟩
  | .hbm, ⟨53, _⟩ => ⟨S8192x256, .f32⟩
  | .hbm, ⟨54, _⟩ => ⟨S_, .i32⟩
  | .hbm, ⟨55, _⟩ => ⟨S8192, .i32⟩
  | .hbm, ⟨56, _⟩ => ⟨S8192, .i1⟩
  | .hbm, ⟨57, _⟩ => ⟨S_, .i32⟩
  | .hbm, ⟨58, _⟩ => ⟨S8192, .i32⟩
  | .hbm, ⟨59, _⟩ => ⟨S8192, .i32⟩
  | .hbm, ⟨60, _⟩ => ⟨S8192, .i32⟩
  | .hbm, ⟨61, _⟩ => ⟨S8192x1, .i32⟩
  | .hbm, ⟨62, _⟩ => ⟨S8192x256, .f32⟩
  | .hbm, ⟨63, _⟩ => ⟨S_, .i32⟩
  | .hbm, ⟨64, _⟩ => ⟨S8192, .i32⟩
  | .hbm, ⟨65, _⟩ => ⟨S8192, .i1⟩
  | .hbm, ⟨66, _⟩ => ⟨S_, .i32⟩
  | .hbm, ⟨67, _⟩ => ⟨S8192, .i32⟩
  | .hbm, ⟨68, _⟩ => ⟨S8192, .i32⟩
  | .hbm, ⟨69, _⟩ => ⟨S8192, .i32⟩
  | .hbm, ⟨70, _⟩ => ⟨S8192x1, .i32⟩
  | .hbm, ⟨71, _⟩ => ⟨S8192x256, .f32⟩
  | .hbm, ⟨72, _⟩ => ⟨S_, .i32⟩
  | .hbm, ⟨73, _⟩ => ⟨S8192, .i32⟩
  | .hbm, ⟨74, _⟩ => ⟨S8192, .i1⟩
  | .hbm, ⟨75, _⟩ => ⟨S_, .i32⟩
  | .hbm, ⟨76, _⟩ => ⟨S8192, .i32⟩
  | .hbm, ⟨77, _⟩ => ⟨S8192, .i32⟩
  | .hbm, ⟨78, _⟩ => ⟨S8192, .i32⟩
  | .hbm, ⟨79, _⟩ => ⟨S8192x1, .i32⟩
  | .hbm, ⟨80, _⟩ => ⟨S8192x256, .f32⟩
  | .hbm, ⟨81, _⟩ => ⟨S_, .i32⟩
  | .hbm, ⟨82, _⟩ => ⟨S8192, .i32⟩
  | .hbm, ⟨83, _⟩ => ⟨S8192, .i1⟩
  | .hbm, ⟨84, _⟩ => ⟨S_, .i32⟩
  | .hbm, ⟨85, _⟩ => ⟨S8192, .i32⟩
  | .hbm, ⟨86, _⟩ => ⟨S8192, .i32⟩
  | .hbm, ⟨87, _⟩ => ⟨S8192, .i32⟩
  | .hbm, ⟨88, _⟩ => ⟨S8192x1, .i32⟩
  | .hbm, ⟨89, _⟩ => ⟨S8192x256, .f32⟩
  | .hbm, ⟨90, _⟩ => ⟨S_, .i32⟩
  | .hbm, ⟨91, _⟩ => ⟨S8192, .i32⟩
  | .hbm, ⟨92, _⟩ => ⟨S8192, .i1⟩
  | .hbm, ⟨93, _⟩ => ⟨S_, .i32⟩
  | .hbm, ⟨94, _⟩ => ⟨S8192, .i32⟩
  | .hbm, ⟨95, _⟩ => ⟨S8192, .i32⟩
  | .hbm, ⟨96, _⟩ => ⟨S8192, .i32⟩
  | .hbm, ⟨97, _⟩ => ⟨S8192x1, .i32⟩
  | .hbm, ⟨98, _⟩ => ⟨S8192x256, .f32⟩
  | .hbm, ⟨99, _⟩ => ⟨S_, .i32⟩
  | .hbm, ⟨100, _⟩ => ⟨S8192, .i32⟩
  | .hbm, ⟨101, _⟩ => ⟨S8192, .i1⟩
  | .hbm, ⟨102, _⟩ => ⟨S_, .i32⟩
  | .hbm, ⟨103, _⟩ => ⟨S8192, .i32⟩
  | .hbm, ⟨104, _⟩ => ⟨S8192, .i32⟩
  | .hbm, ⟨105, _⟩ => ⟨S8192, .i32⟩
  | .hbm, ⟨106, _⟩ => ⟨S8192x1, .i32⟩
  | .hbm, ⟨107, _⟩ => ⟨S8192x256, .f32⟩
  | .hbm, ⟨108, _⟩ => ⟨S_, .i32⟩
  | .hbm, ⟨109, _⟩ => ⟨S8192, .i32⟩
  | .hbm, ⟨110, _⟩ => ⟨S8192, .i1⟩
  | .hbm, ⟨111, _⟩ => ⟨S_, .i32⟩
  | .hbm, ⟨112, _⟩ => ⟨S8192, .i32⟩
  | .hbm, ⟨113, _⟩ => ⟨S8192, .i32⟩
  | .hbm, ⟨114, _⟩ => ⟨S8192, .i32⟩
  | .hbm, ⟨115, _⟩ => ⟨S8192x1, .i32⟩
  | .hbm, ⟨116, _⟩ => ⟨S8192x256, .f32⟩
  | .hbm, ⟨117, _⟩ => ⟨S_, .i32⟩
  | .hbm, ⟨118, _⟩ => ⟨S8192, .i32⟩
  | .hbm, ⟨119, _⟩ => ⟨S8192, .i1⟩
  | .hbm, ⟨120, _⟩ => ⟨S_, .i32⟩
  | .hbm, ⟨121, _⟩ => ⟨S8192, .i32⟩
  | .hbm, ⟨122, _⟩ => ⟨S8192, .i32⟩
  | .hbm, ⟨123, _⟩ => ⟨S8192, .i32⟩
  | .hbm, ⟨124, _⟩ => ⟨S8192x1, .i32⟩
  | .hbm, ⟨125, _⟩ => ⟨S8192x256, .f32⟩
  | .hbm, ⟨126, _⟩ => ⟨S8192, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512, .f32⟩
  | .local _ .vmem, ⟨25, _⟩ => ⟨S512, .f32⟩
  | _, _ => ⟨S8192x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_3 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_c_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_7 : Ref sig .tc := ⟨.hbm, 54, rfl⟩
abbrev main_v40 : Ref sig .tc := ⟨.hbm, 55, rfl⟩
abbrev main_v41 : Ref sig .tc := ⟨.hbm, 56, rfl⟩
abbrev main_c_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_9 : Ref sig .tc := ⟨.hbm, 63, rfl⟩
abbrev main_v47 : Ref sig .tc := ⟨.hbm, 64, rfl⟩
abbrev main_v48 : Ref sig .tc := ⟨.hbm, 65, rfl⟩
abbrev main_c_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_11 : Ref sig .tc := ⟨.hbm, 72, rfl⟩
abbrev main_v54 : Ref sig .tc := ⟨.hbm, 73, rfl⟩
abbrev main_v55 : Ref sig .tc := ⟨.hbm, 74, rfl⟩
abbrev main_c_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_13 : Ref sig .tc := ⟨.hbm, 81, rfl⟩
abbrev main_v61 : Ref sig .tc := ⟨.hbm, 82, rfl⟩
abbrev main_v62 : Ref sig .tc := ⟨.hbm, 83, rfl⟩
abbrev main_c_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_15 : Ref sig .tc := ⟨.hbm, 90, rfl⟩
abbrev main_v68 : Ref sig .tc := ⟨.hbm, 91, rfl⟩
abbrev main_v69 : Ref sig .tc := ⟨.hbm, 92, rfl⟩
abbrev main_c_16 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_c_17 : Ref sig .tc := ⟨.hbm, 99, rfl⟩
abbrev main_v75 : Ref sig .tc := ⟨.hbm, 100, rfl⟩
abbrev main_v76 : Ref sig .tc := ⟨.hbm, 101, rfl⟩
abbrev main_c_18 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_c_19 : Ref sig .tc := ⟨.hbm, 108, rfl⟩
abbrev main_v82 : Ref sig .tc := ⟨.hbm, 109, rfl⟩
abbrev main_v83 : Ref sig .tc := ⟨.hbm, 110, rfl⟩
abbrev main_c_20 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_c_21 : Ref sig .tc := ⟨.hbm, 117, rfl⟩
abbrev main_v89 : Ref sig .tc := ⟨.hbm, 118, rfl⟩
abbrev main_v90 : Ref sig .tc := ⟨.hbm, 119, rfl⟩
abbrev main_c_22 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S8192x3_S8192x1_0_0 : S8192x3.Slices ![0, 0] S8192x1
  shapeCasts_S8192x1_S8192 : S8192x1.ShapeCasts S8192
  slices_S8192x3_S8192x1_0_1 : S8192x3.Slices ![0, 1] S8192x1
  slices_S8192x3_S8192x1_0_2 : S8192x3.Slices ![0, 2] S8192x1
  bcast_S_S8192 : S_.BroadcastsInDim S8192 (![] : Fin 0 → Fin S8192.rank)
  bcast_S8192_S8192x1_0 : S8192.BroadcastsInDim S8192x1 (![0] : Fin 1 → Fin S8192x1.rank)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S512 : S512x256.Reduces [1] S512
  shapeCasts_S512_S512x1 : S512.ShapeCasts S512x1
  broadcasts_S512x1_S512x256 : S512x1.Broadcasts S512x256
  inb_S512_S512_0 : ∀ a, (![0] : Fin 1 → Nat) a + S512.size a ≤ S512.size a
  h_S512 : 0 < S512.numel
  gather_S100000x256_S8192x1_S8192x256_1_0_n_n_0_1_1256_wf : GatherDims.WF S100000x256 S8192x1 S8192x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x256.size a
  hwx0_2 : ∀ i : grid0.Coords, EltTy.bits .f32 = 32 ∨ (Rect.block (s := S8192x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S8192x256.size a
  hwx0_3 : ∀ i : grid0.Coords, EltTy.bits .f32 = 32 ∨ (Rect.block (s := S8192x256) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S8192x256.size a
  hwx0_4 : ∀ i : grid0.Coords, EltTy.bits .f32 = 32 ∨ (Rect.block (s := S8192x256) S512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S8192x256.size a
  hwx0_5 : ∀ i : grid0.Coords, EltTy.bits .f32 = 32 ∨ (Rect.block (s := S8192x256) S512x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S8192x256.size a
  hwx0_6 : ∀ i : grid0.Coords, EltTy.bits .f32 = 32 ∨ (Rect.block (s := S8192x256) S512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S8192x256.size a
  hwx0_7 : ∀ i : grid0.Coords, EltTy.bits .f32 = 32 ∨ (Rect.block (s := S8192x256) S512x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S8192x256.size a
  hwx0_8 : ∀ i : grid0.Coords, EltTy.bits .f32 = 32 ∨ (Rect.block (s := S8192x256) S512x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S8192x256.size a
  hwx0_9 : ∀ i : grid0.Coords, EltTy.bits .f32 = 32 ∨ (Rect.block (s := S8192x256) S512x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S8192x256.size a
  hwx0_10 : ∀ i : grid0.Coords, EltTy.bits .f32 = 32 ∨ (Rect.block (s := S8192x256) S512x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x256.size a ≤ S8192x256.size a
  hwx0_11 : ∀ i : grid0.Coords, EltTy.bits .f32 = 32 ∨ (Rect.block (s := S8192x256) S512x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S8192.size a
  hwx0_12 : ∀ i : grid0.Coords, EltTy.bits .f32 = 32 ∨ (Rect.block (s := S8192) S512.size (cc0_transform_12 i) (hinb0_12 i)).WholeWords (EltTy.packing .f32)

variable [Facts₀]

def gather_S100000x256_S8192x1_S8192x256_1_0_n_n_0_1_1256 : GatherDims S100000x256 S8192x1 S8192x256 where
  offsetDims := [1]
  collapsedSliceDims := [0]
  operandBatchingDims := []
  startIndicesBatchingDims := []
  startIndexMap := [0]
  indexVectorDim := 1
  sliceSizes := ![1, 256]
  wf := gather_S100000x256_S8192x1_S8192x256_1_0_n_n_0_1_1256_wf

abbrev win0_0 : Pipeline.Window sig grid0 :=
  Pipeline.Window.ofSpec (Memref.whole main_v18) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v46) S512x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v53) S512x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v60) S512x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v67) S512x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v74) S512x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v81) S512x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v88) S512x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v95) S512x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v96) S512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8192x3 : Shape := ⟨2, ![8192, 3]⟩
abbrev S100000x256 : Shape := ⟨2, ![100000, 256]⟩
abbrev S8192x1 : Shape := ⟨2, ![8192, 1]⟩
abbrev S8192 : Shape := ⟨1, ![8192]⟩
abbrev S_ : Shape := ⟨0, ![]⟩
abbrev S8192x256 : Shape := ⟨2, ![8192, 256]⟩

abbrev nBuf : Space → Nat
  | .hbm => 233
  | .vmem => 0
  | .smem => 0
  | _ => 0

abbrev hbmTy0_0 (i : Nat) : BufTy := match i % 128 with
  | 0 => ⟨S8192x3, .i32⟩
  | 1 => ⟨S8192x3, .i32⟩
  | 2 => ⟨S100000x256, .f32⟩
  | 3 => ⟨S100000x256, .f32⟩
  | 4 => ⟨S100000x256, .f32⟩
  | 5 => ⟨S100000x256, .f32⟩
  | 6 => ⟨S8192x1, .i32⟩
  | 7 => ⟨S8192, .i32⟩
  | 8 => ⟨S8192x1, .i32⟩
  | 9 => ⟨S8192, .i32⟩
  | 10 => ⟨S8192x1, .i32⟩
  | 11 => ⟨S8192, .i32⟩
  | 12 => ⟨S_, .i32⟩
  | 13 => ⟨S8192, .i32⟩
  | 14 => ⟨S8192, .i1⟩
  | 15 => ⟨S_, .i32⟩
  | 16 => ⟨S8192, .i32⟩
  | 17 => ⟨S8192, .i32⟩
  | 18 => ⟨S8192, .i32⟩
  | 19 => ⟨S8192x1, .i32⟩
  | 20 => ⟨S8192x256, .f32⟩
  | 21 => ⟨S_, .i32⟩
  | 22 => ⟨S8192, .i32⟩
  | 23 => ⟨S8192, .i1⟩
  | 24 => ⟨S_, .i32⟩
  | 25 => ⟨S8192, .i32⟩
  | 26 => ⟨S8192, .i32⟩
  | 27 => ⟨S8192, .i32⟩
  | 28 => ⟨S8192x1, .i32⟩
  | 29 => ⟨S8192x256, .f32⟩
  | 30 => ⟨S_, .i32⟩
  | 31 => ⟨S8192, .i32⟩
  | 32 => ⟨S8192, .i1⟩
  | 33 => ⟨S_, .i32⟩
  | 34 => ⟨S8192, .i32⟩
  | 35 => ⟨S8192, .i32⟩
  | 36 => ⟨S8192, .i32⟩
  | 37 => ⟨S8192x1, .i32⟩
  | 38 => ⟨S8192x256, .f32⟩
  | 39 => ⟨S_, .i32⟩
  | 40 => ⟨S8192, .i32⟩
  | 41 => ⟨S8192, .i1⟩
  | 42 => ⟨S_, .i32⟩
  | 43 => ⟨S8192, .i32⟩
  | 44 => ⟨S8192, .i32⟩
  | 45 => ⟨S8192, .i32⟩
  | 46 => ⟨S8192x1, .i32⟩
  | 47 => ⟨S8192x256, .f32⟩
  | 48 => ⟨S_, .i32⟩
  | 49 => ⟨S8192, .i32⟩
  | 50 => ⟨S8192, .i1⟩
  | 51 => ⟨S_, .i32⟩
  | 52 => ⟨S8192, .i32⟩
  | 53 => ⟨S8192, .i32⟩
  | 54 => ⟨S8192, .i32⟩
  | 55 => ⟨S8192x1, .i32⟩
  | 56 => ⟨S8192x256, .f32⟩
  | 57 => ⟨S_, .i32⟩
  | 58 => ⟨S8192, .i32⟩
  | 59 => ⟨S8192, .i1⟩
  | 60 => ⟨S_, .i32⟩
  | 61 => ⟨S8192, .i32⟩
  | 62 => ⟨S8192, .i32⟩
  | 63 => ⟨S8192, .i32⟩
  | 64 => ⟨S8192x1, .i32⟩
  | 65 => ⟨S8192x256, .f32⟩
  | 66 => ⟨S8192x256, .f32⟩
  | 67 => ⟨S_, .f32⟩
  | 68 => ⟨S8192, .f32⟩
  | 69 => ⟨S8192x1, .f32⟩
  | 70 => ⟨S8192x256, .f32⟩
  | 71 => ⟨S8192x256, .f32⟩
  | 72 => ⟨S8192x256, .f32⟩
  | 73 => ⟨S8192x256, .f32⟩
  | 74 => ⟨S_, .f32⟩
  | 75 => ⟨S8192, .f32⟩
  | 76 => ⟨S8192x1, .f32⟩
  | 77 => ⟨S8192x256, .f32⟩
  | 78 => ⟨S8192x256, .f32⟩
  | 79 => ⟨S8192x256, .f32⟩
  | 80 => ⟨S8192x1, .i32⟩
  | 81 => ⟨S8192, .i32⟩
  | 82 => ⟨S8192x1, .i32⟩
  | 83 => ⟨S8192, .i32⟩
  | 84 => ⟨S8192x1, .i32⟩
  | 85 => ⟨S8192, .i32⟩
  | 86 => ⟨S_, .i32⟩
  | 87 => ⟨S8192, .i32⟩
  | 88 => ⟨S8192, .i1⟩
  | 89 => ⟨S_, .i32⟩
  | 90 => ⟨S8192, .i32⟩
  | 91 => ⟨S8192, .i32⟩
  | 92 => ⟨S8192, .i32⟩
  | 93 => ⟨S8192x1, .i32⟩
  | 94 => ⟨S8192x256, .f32⟩
  | 95 => ⟨S_, .i32⟩
  | 96 => ⟨S8192, .i32⟩
  | 97 => ⟨S8192, .i1⟩
  | 98 => ⟨S_, .i32⟩
  | 99 => ⟨S8192, .i32⟩
  | 100 => ⟨S8192, .i32⟩
  | 101 => ⟨S8192, .i32⟩
  | 102 => ⟨S8192x1, .i32⟩
  | 103 => ⟨S8192x256, .f32⟩
  | 104 => ⟨S_, .i32⟩
  | 105 => ⟨S8192, .i32⟩
  | 106 => ⟨S8192, .i1⟩
  | 107 => ⟨S_, .i32⟩
  | 108 => ⟨S8192, .i32⟩
  | 109 => ⟨S8192, .i32⟩
  | 110 => ⟨S8192, .i32⟩
  | 111 => ⟨S8192x1, .i32⟩
  | 112 => ⟨S8192x256, .f32⟩
  | 113 => ⟨S_, .i32⟩
  | 114 => ⟨S8192, .i32⟩
  | 115 => ⟨S8192, .i1⟩
  | 116 => ⟨S_, .i32⟩
  | 117 => ⟨S8192, .i32⟩
  | 118 => ⟨S8192, .i32⟩
  | 119 => ⟨S8192, .i32⟩
  | 120 => ⟨S8192x1, .i32⟩
  | 121 => ⟨S8192x256, .f32⟩
  | 122 => ⟨S_, .i32⟩
  | 123 => ⟨S8192, .i32⟩
  | 124 => ⟨S8192, .i1⟩
  | 125 => ⟨S_, .i32⟩
  | 126 => ⟨S8192, .i32⟩
  | 127 => ⟨S8192, .i32⟩
  | _ => ⟨S8192x3, .i32⟩

abbrev hbmTy0_1 (i : Nat) : BufTy := match i % 128 with
  | 0 => ⟨S8192, .i32⟩
  | 1 => ⟨S8192x1, .i32⟩
  | 2 => ⟨S8192x256, .f32⟩
  | 3 => ⟨S_, .i32⟩
  | 4 => ⟨S8192, .i32⟩
  | 5 => ⟨S8192, .i1⟩
  | 6 => ⟨S_, .i32⟩
  | 7 => ⟨S8192, .i32⟩
  | 8 => ⟨S8192, .i32⟩
  | 9 => ⟨S8192, .i32⟩
  | 10 => ⟨S8192x1, .i32⟩
  | 11 => ⟨S8192x256, .f32⟩
  | 12 => ⟨S8192x256, .f32⟩
  | 13 => ⟨S_, .f32⟩
  | 14 => ⟨S8192, .f32⟩
  | 15 => ⟨S8192x1, .f32⟩
  | 16 => ⟨S8192x256, .f32⟩
  | 17 => ⟨S8192x256, .f32⟩
  | 18 => ⟨S8192x256, .f32⟩
  | 19 => ⟨S8192x256, .f32⟩
  | 20 => ⟨S_, .f32⟩
  | 21 => ⟨S8192, .f32⟩
  | 22 => ⟨S8192x1, .f32⟩
  | 23 => ⟨S8192x256, .f32⟩
  | 24 => ⟨S8192x256, .f32⟩
  | 25 => ⟨S8192x256, .f32⟩
  | 26 => ⟨S8192x256, .f32⟩
  | 27 => ⟨S_, .f32⟩
  | 28 => ⟨S8192, .f32⟩
  | 29 => ⟨S8192x1, .f32⟩
  | 30 => ⟨S8192x1, .f32⟩
  | 31 => ⟨S_, .f32⟩
  | 32 => ⟨S8192x1, .f32⟩
  | 33 => ⟨S8192x1, .f32⟩
  | 34 => ⟨S8192x256, .f32⟩
  | 35 => ⟨S8192x256, .f32⟩
  | 36 => ⟨S8192x256, .f32⟩
  | 37 => ⟨S_, .f32⟩
  | 38 => ⟨S8192, .f32⟩
  | 39 => ⟨S8192x1, .f32⟩
  | 40 => ⟨S8192x1, .f32⟩
  | 41 => ⟨S_, .f32⟩
  | 42 => ⟨S8192x1, .f32⟩
  | 43 => ⟨S8192x1, .f32⟩
  | 44 => ⟨S8192x256, .f32⟩
  | 45 => ⟨S8192x256, .f32⟩
  | 46 => ⟨S8192x256, .f32⟩
  | 47 => ⟨S8192x256, .f32⟩
  | 48 => ⟨S_, .f32⟩
  | 49 => ⟨S8192, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x256, .f32⟩
  | 56 => ⟨S8192x256, .f32⟩
  | 57 => ⟨S8192x256, .f32⟩
  | 58 => ⟨S8192x256, .f32⟩
  | 59 => ⟨S_, .f32⟩
  | 60 => ⟨S8192, .f32⟩
  | 61 => ⟨S8192, .f32⟩
  | 62 => ⟨S8192x256, .f32⟩
  | 63 => ⟨S_, .f32⟩
  | 64 => ⟨S8192, .f32⟩
  | 65 => ⟨S8192x1, .f32⟩
  | 66 => ⟨S8192x1, .f32⟩
  | 67 => ⟨S_, .f32⟩
  | 68 => ⟨S8192x1, .f32⟩
  | 69 => ⟨S8192x1, .f32⟩
  | 70 => ⟨S8192x256, .f32⟩
  | 71 => ⟨S8192x256, .f32⟩
  | 72 => ⟨S8192x256, .f32⟩
  | 73 => ⟨S_, .f32⟩
  | 74 => ⟨S8192, .f32⟩
  | 75 => ⟨S8192x1, .f32⟩
  | 76 => ⟨S8192x1, .f32⟩
  | 77 => ⟨S_, .f32⟩
  | 78 => ⟨S8192x1, .f32⟩
  | 79 => ⟨S8192x1, .f32⟩
  | 80 => ⟨S8192x256, .f32⟩
  | 81 => ⟨S8192x256, .f32⟩
  | 82 => ⟨S8192x256, .f32⟩
  | 83 => ⟨S8192x256, .f32⟩
  | 84 => ⟨S_, .f32⟩
  | 85 => ⟨S8192, .f32⟩
  | 86 => ⟨S8192x1, .f32⟩
  | 87 => ⟨S8192x1, .f32⟩
  | 88 => ⟨S_, .f32⟩
  | 89 => ⟨S8192x1, .f32⟩
  | 90 => ⟨S8192x1, .f32⟩
  | 91 => ⟨S8192x256, .f32⟩
  | 92 => ⟨S8192x256, .f32⟩
  | 93 => ⟨S8192x256, .f32⟩
  | 94 => ⟨S8192x256, .f32⟩
  | 95 => ⟨S_, .f32⟩
  | 96 => ⟨S8192, .f32⟩
  | 97 => ⟨S8192, .f32⟩
  | 98 => ⟨S8192, .f32⟩
  | 99 => ⟨S_, .f32⟩
  | 100 => ⟨S8192, .f32⟩
  | 101 => ⟨S8192, .f32⟩
  | 102 => ⟨S_, .f32⟩
  | 103 => ⟨S8192, .f32⟩
  | 104 => ⟨S8192, .f32⟩
  | _ => ⟨S8192x3, .i32⟩

abbrev hbmTy (i : Nat) : BufTy := match i / 128 with
  | 0 => hbmTy0_0 i
  | 1 => hbmTy0_1 i
  | _ => ⟨S8192x3, .i32⟩

abbrev bufTy : (tb : Table) → Fin (tcTables nBuf tb) → BufTy
  | .hbm, ⟨i, _⟩ => hbmTy i
  | _, _ => ⟨S8192x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_7 : Ref sig .tc := ⟨.hbm, 48, rfl⟩
abbrev main_v34 : Ref sig .tc := ⟨.hbm, 49, rfl⟩
abbrev main_v35 : Ref sig .tc := ⟨.hbm, 50, rfl⟩
abbrev main_c_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_9 : Ref sig .tc := ⟨.hbm, 57, rfl⟩
abbrev main_v41 : Ref sig .tc := ⟨.hbm, 58, rfl⟩
abbrev main_v42 : Ref sig .tc := ⟨.hbm, 59, rfl⟩
abbrev main_c_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_c_12 : Ref sig .tc := ⟨.hbm, 86, rfl⟩
abbrev main_v66 : Ref sig .tc := ⟨.hbm, 87, rfl⟩
abbrev main_v67 : Ref sig .tc := ⟨.hbm, 88, rfl⟩
abbrev main_c_13 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_c_14 : Ref sig .tc := ⟨.hbm, 95, rfl⟩
abbrev main_v73 : Ref sig .tc := ⟨.hbm, 96, rfl⟩
abbrev main_v74 : Ref sig .tc := ⟨.hbm, 97, rfl⟩
abbrev main_c_15 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_c_16 : Ref sig .tc := ⟨.hbm, 104, rfl⟩
abbrev main_v80 : Ref sig .tc := ⟨.hbm, 105, rfl⟩
abbrev main_v81 : Ref sig .tc := ⟨.hbm, 106, rfl⟩
abbrev main_c_17 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_c_18 : Ref sig .tc := ⟨.hbm, 113, rfl⟩
abbrev main_v87 : Ref sig .tc := ⟨.hbm, 114, rfl⟩
abbrev main_v88 : Ref sig .tc := ⟨.hbm, 115, rfl⟩
abbrev main_c_19 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_c_20 : Ref sig .tc := ⟨.hbm, 122, rfl⟩
abbrev main_v94 : Ref sig .tc := ⟨.hbm, 123, rfl⟩
abbrev main_v95 : Ref sig .tc := ⟨.hbm, 124, rfl⟩
abbrev main_c_21 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_c_22 : Ref sig .tc := ⟨.hbm, 131, rfl⟩
abbrev main_v101 : Ref sig .tc := ⟨.hbm, 132, rfl⟩
abbrev main_v102 : Ref sig .tc := ⟨.hbm, 133, rfl⟩
abbrev main_c_23 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_24 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_25 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_cst_26 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_cst_27 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_cst_28 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_cst_29 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_cst_30 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_cst_31 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_cst_32 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_cst_33 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_cst_34 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_cst_35 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_cst_36 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_cst_37 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_cst_38 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_cst_39 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_cst_40 : Ref sig .tc := ⟨.hbm, 227, rfl⟩
abbrev main_v179 : Ref sig .tc := ⟨.hbm, 228, rfl⟩
abbrev main_v180 : Ref sig .tc := ⟨.hbm, 229, rfl⟩
abbrev main_cst_41 : Ref sig .tc := ⟨.hbm, 230, rfl⟩
abbrev main_v181 : Ref sig .tc := ⟨.hbm, 231, rfl⟩
abbrev main_v182 : Ref sig .tc := ⟨.hbm, 232, rfl⟩

abbrev nD : Nat := 1
abbrev τ : Topo := Topo.v7x

variable {F : FTy → Type} [FloatOps F]

class Facts₀ : Prop where
  slices_S8192x3_S8192x1_0_0 : S8192x3.Slices ![0, 0] S8192x1
  shapeCasts_S8192x1_S8192 : S8192x1.ShapeCasts S8192
  slices_S8192x3_S8192x1_0_1 : S8192x3.Slices ![0, 1] S8192x1
  slices_S8192x3_S8192x1_0_2 : S8192x3.Slices ![0, 2] S8192x1
  bcast_S_S8192 : S_.BroadcastsInDim S8192 (![] : Fin 0 → Fin S8192.rank)
  bcast_S8192_S8192x1_0 : S8192.BroadcastsInDim S8192x1 (![0] : Fin 1 → Fin S8192x1.rank)
  reducesTo_S8192x256_S8192_d1 : S8192x256.ReducesTo [1] S8192
  h_S_ : 0 < S_.numel
  bcast_S8192x1_S8192x256_0_1 : S8192x1.BroadcastsInDim S8192x256 (![0, 1] : Fin 2 → Fin S8192x256.rank)
  bcast_S_S8192x1 : S_.BroadcastsInDim S8192x1 (![] : Fin 0 → Fin S8192x1.rank)
  gather_S100000x256_S8192x1_S8192x256_1_0_n_n_0_1_1256_wf : GatherDims.WF S100000x256 S8192x1 S8192x256 [1] [0] [] [0] [] 1 ![1, 256]

variable [Facts₀]

def gather_S100000x256_S8192x1_S8192x256_1_0_n_n_0_1_1256 : GatherDims S100000x256 S8192x1 S8192x256 where
  offsetDims := [1]
  collapsedSliceDims := [0]
  operandBatchingDims := []
  startIndicesBatchingDims := []
  startIndexMap := [0]
  indexVectorDim := 1
  sliceSizes := ![1, 256]
  wf := gather_S100000x256_S8192x1_S8192x256_1_0_n_n_0_1_1256_wf

class Facts : Prop extends Facts₀ where

variable [Facts]
-- ==== Proof.LibColumn.lean ====
/-
  A vector as a one-column matrix, read at an index. An array of `a` entries recast to `a` rows of one column holds at
  row `p` (whatever the column coordinate, which can only be 0) the operand's entry `p`: row-major order counts the same
  entries in the same order on both sides.
-/
import Idealize.ShloMosaic.Lib.Pipeline.Value
import Idealize.ShloMosaic.Lib.ValueLayout

namespace Idealize.ShloMosaic.ValueIdx

open Idealize.ShloMosaic

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.LibLayout.lean ====
/-
  A keepdims column read at an index. An array with one column, broadcast along its unit axis to `b` columns,
  holds at `(p, c)` the operand's entry in row `p`: every column is a copy of the one column.
-/
import Idealize.ShloMosaic.Lib.Pipeline.Value
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibColumnVec.lean ====
import Idealize.ShloMosaic.Lib.ValueIdx
import Idealize.ShloMosaic.Lib.Pipeline.Value
import Idealize.ShloMosaic.Lib.ValueLayout

/-!
# A vector set as a column, a column read as a vector, one column cut out of a matrix

Four re-layings of `N` numbers, each read at an index written by its coordinates:

* a vector [N] laid out as a column [N, 1] (a `broadcast_in_dim` along axis 0): entry `(n, 0)` is entry `n`;
* a vector [N] laid out as a row [1, N] (a `broadcast_in_dim` along axis 1): entry `(0, n)` is entry `n`;
* a column [N, 1] recast to a vector [N]: entry `n` is entry `(n, 0)`;
* column `k` cut out of a matrix [N, C] as a column [N, 1]: entry `(n, 0)` is entry `(n, k)`.

Nothing here depends on what the entries are.
-/

namespace Cert.LibColumnVec

open Idealize.ShloMosaic Idealize.ShloMosaic.ValueIdx

variable {α : Type}

/-- A vector laid out as a column. -/
theorem columnOfVector_at {N : ℕ} (v : (⟨1, ![N]⟩ : Shape).Idx → α)
    (h : (⟨1, ![N]⟩ : Shape).BroadcastsInDim ⟨2, ![N, 1]⟩ (![0] : Fin 1 → Fin 2)) (n : Fin N) :
    broadcastInDim ⟨2, ![N, 1]⟩ (![0] : Fin 1 → Fin 2) h v (ix2 n 0) = v (ix1 n) :=
  broadcastInDim_apply _ h v (ix2 n 0) (ix1 n) (fun a => by
    match a with
    | ⟨0, _⟩ =>
      show n.val = if N = 1 then 0 else n.val
      by_cases hN : N = 1
      · rw [if_pos hN]; have := n.isLt; omega
      · rw [if_neg hN])

/-- A vector laid out as a row. -/
theorem rowOfVector_at {N : ℕ} (v : (⟨1, ![N]⟩ : Shape).Idx → α)
    (h : (⟨1, ![N]⟩ : Shape).BroadcastsInDim ⟨2, ![1, N]⟩ (![1] : Fin 1 → Fin 2)) (n : Fin N) :
    broadcastInDim ⟨2, ![1, N]⟩ (![1] : Fin 1 → Fin 2) h v (ix2 0 n) = v (ix1 n) :=
  broadcastInDim_apply _ h v (ix2 0 n) (ix1 n) (fun a => by
    match a with
    | ⟨0, _⟩ =>
      show n.val = if N = 1 then 0 else n.val
      by_cases hN : N = 1
      · rw [if_pos hN]; have := n.isLt; omega
      · rw [if_neg hN])

/-- A column recast to a vector: the same numbers in the same order. -/
theorem vectorOfColumn_at {N : ℕ} (A : (⟨2, ![N, 1]⟩ : Shape).Idx → α)
    (h : (⟨2, ![N, 1]⟩ : Shape).ShapeCasts ⟨1, ![N]⟩) (n : Fin N) :
    shapeCast ⟨1, ![N]⟩ A h (ix1 n) = A (ix2 n 0) :=
  shapeCast_apply A h (ix1 n) (ix2 n 0) (by
    rw [Shape.rowMajor_val_two, Shape.rowMajor_val_one]
    show n.val * 1 + 0 = n.val
    omega)

/-- Column `k` of a matrix, cut out as a column. -/
theorem columnOfMatrix_at {N C : ℕ} (k : ℕ) (A : (⟨2, ![N, C]⟩ : Shape).Idx → α)
    (h : (⟨2, ![N, C]⟩ : Shape).Slices ![0, k] ⟨2, ![N, 1]⟩) (n : Fin N) :
    extractStridedSlice ⟨2, ![N, 1]⟩ ![0, k] A h (ix2 n 0)
      = A (ix2 n ⟨k, by have := h.2 1; simpa using this⟩) :=
  slice2_axis1_apply k A h n 0 _ (by simp)

end Cert.LibColumnVec
-- ==== Proof.LibHostBroadcast.lean ====
/-
  Host `broadcast_in_dim` of small shapes read at an index built with `ix2`:
  a column [a,1] spread over the columns of [a,b], a row [1,b] spread over the rows of [a,b]
  (both with the identity dimension map ![0,1]), and a rank-0 scalar spread over any shape.
  Each is the general `broadcastInDim_apply` with the operand's index written out.
-/
import Idealize.ShloMosaic.Lib.ValueIdx
import Idealize.ShloMosaic.Lib.Pipeline.Value

namespace Cert.LibHostBroadcast

open Idealize.ShloMosaic Idealize.ShloMosaic.ValueIdx

variable {α : Type}

/-- A column [a,1] broadcast to [a,b] along the identity map, read at (p,c), is the column at (p,0). -/
theorem column_at {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun d => ?_
  match d with
  | ⟨0, _⟩ =>
    show p.val = if a = 1 then 0 else p.val
    split
    · have := p.isLt; omega
    · rfl
  | ⟨1, _⟩ => rfl

/-- A row [1,b] broadcast to [a,b] along the identity map, read at (p,c), is the row at (0,c). -/
theorem row_at {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 (0 : Fin 1) c) := by
  refine broadcastInDim_apply _ h v (ix2 p c) (ix2 (0 : Fin 1) c) fun d => ?_
  match d with
  | ⟨0, _⟩ => rfl
  | ⟨1, _⟩ =>
    show c.val = if b = 1 then 0 else c.val
    split
    · have := c.isLt; omega
    · rfl

/-- A rank-0 scalar broadcast to any shape, read anywhere, is the scalar. -/
theorem scalar_at {t : Shape} (v : (⟨0, ![]⟩ : Shape).Idx → α) (dims : Fin 0 → Fin t.rank)
    (h : (⟨0, ![]⟩ : Shape).BroadcastsInDim t dims) (j : t.Idx) :
    broadcastInDim t dims h v j = v ix0 :=
  broadcastInDim_apply dims h v j ix0 fun d => d.elim0

end Cert.LibHostBroadcast
-- ==== Proof.LibLayerNorm.lean ====
/-
  Layer normalisation over the last axis of a matrix, read at an entry, on the extended reals.

  For a row v of length n, a count c and an offset ε:
    mean c v        = (Σ_j v j) / c
    rstd c ε v      = rsqrt ((Σ_j (v j − mean)·(v j − mean)) / c + ε)
    normed c ε v j  = (v j − mean) · rstd
    layerNorm … j   = normed j · g j + b j
  The two spellings of the same computation are read at (p, j) as these row functions of row p:
  the vector form (a lane sum, a cast of the sums to a column, a division by a splat, a column
  broadcast, a row broadcast of the scale and shift vectors) and the host form (a reduce from an
  initial zero, broadcast_in_dim of the sums to a column, of a rank-0 constant, of the column and of
  the parameter vectors). Nothing is assumed finite: every step is a definitional reading or a
  re-indexing of a sum.
-/
import Idealize.ShloMosaic.Lib.ValueIdx
import Idealize.ShloMosaic.Lib.Pipeline.Value
import Idealize.ShloMosaic.Lib.ValueLayout
import Idealize.ShloMosaic.PureOps.Ideal.Laws
import proofs.«159799_j64828236366349_1_alg».proof.Proof.LibColumn
import proofs.«159799_j64828236366349_1_alg».proof.Proof.LibLayout
import proofs.«159799_j64828236366349_1_alg».proof.Proof.LibColumnVec
import proofs.«159799_j64828236366349_1_alg».proof.Proof.LibHostBroadcast

noncomputable section

open scoped BigOperators

namespace Cert.LibLayerNorm

open Idealize.ShloMosaic Idealize.ShloMosaic.ValueIdx

/-! ## The row functions -/

section Row
variable {n : ℕ}

/-- The mean of a row: its sum divided by the count. -/
def mean (c : EReal) (v : Fin n → EReal) : EReal := Ideal.div (∑ j, v j) c

/-- The reciprocal standard deviation: rsqrt of the mean squared deviation plus ε. -/
def rstd (c ε : EReal) (v : Fin n → EReal) : EReal :=
  Ideal.rsqrt (Ideal.div (∑ j, (v j - mean c v) * (v j - mean c v)) c + ε)

/-- The normalised row. -/
def normed (c ε : EReal) (v : Fin n → EReal) (j : Fin n) : EReal := (v j - mean c v) * rstd c ε v

/-- The normalised row scaled by g and shifted by b. -/
def layerNorm (c ε : EReal) (v g b : Fin n → EReal) (j : Fin n) : EReal := normed c ε v j * g j + b j

end Row

variable {R C : ℕ}

/-! ## The vector form -/

/-- A lane sum over the last axis from the zero pattern, read at row p, is the sum of row p. -/
theorem laneSum_at (v : FVec Ideal (⟨2, ![R, C]⟩ : Shape) .f32)
    (hred : (⟨2, ![R, C]⟩ : Shape).Reduces [(1 : Fin 2)] ⟨1, ![R]⟩) (hφ : FKind.Formats .f32)
    (hacc : (0x00000000#32 : BitVec 32) = FKind.add.neutral .f32 hφ) (p : Fin R) :
    multiReduction .add [(1 : Fin 2)] ⟨1, ![R]⟩ v 0x00000000#32 hred hφ hacc (ix1 p) = ∑ j : Fin C, v (ix2 p j) := by
  refine (Ideal.multiReduction_add_single v _ hred hφ hacc (ix1 p)).trans ?_
  refine Finset.sum_congr rfl fun k _ => congrArg v ?_
  funext a
  match a with
  | ⟨0, _⟩ => rfl
  | ⟨1, _⟩ => rfl

/-- The column of row means in the vector form: lane sums, cast to a column, divided by a splat. -/
abbrev meanColV (v : FVec Ideal (⟨2, ![R, C]⟩ : Shape) .f32) (cw : BitVec 32)
    (hred : (⟨2, ![R, C]⟩ : Shape).Reduces [(1 : Fin 2)] ⟨1, ![R]⟩) (hφ : FKind.Formats .f32)
    (hacc : (0x00000000#32 : BitVec 32) = FKind.add.neutral .f32 hφ)
    (hc : (⟨1, ![R]⟩ : Shape).ShapeCasts ⟨2, ![R, 1]⟩) : FVec Ideal (⟨2, ![R, 1]⟩ : Shape) .f32 :=
  divf (shapeCast ⟨2, ![R, 1]⟩ (multiReduction .add [(1 : Fin 2)] ⟨1, ![R]⟩ v 0x00000000#32 hred hφ hacc) hc)
    (broadcast ⟨2, ![R, 1]⟩ (Scalar.ofBits .f32 cw))

theorem meanColV_at (v : FVec Ideal (⟨2, ![R, C]⟩ : Shape) .f32) (cw : BitVec 32)
    (hred : (⟨2, ![R, C]⟩ : Shape).Reduces [(1 : Fin 2)] ⟨1, ![R]⟩) (hφ : FKind.Formats .f32)
    (hacc : (0x00000000#32 : BitVec 32) = FKind.add.neutral .f32 hφ)
    (hc : (⟨1, ![R]⟩ : Shape).ShapeCasts ⟨2, ![R, 1]⟩) (p : Fin R) (u : Fin 1) :
    meanColV v cw hred hφ hacc hc (ix2 p u) = mean (Ideal.ofBits .f32 cw) (fun j : Fin C => v (ix2 p j)) := by
  show Ideal.div (shapeCast ⟨2, ![R, 1]⟩ (multiReduction .add [(1 : Fin 2)] ⟨1, ![R]⟩ v 0x00000000#32 hred hφ hacc) hc (ix2 p u))
      (Ideal.ofBits .f32 cw) = _
  rw [shapeCast_a_a1_apply, laneSum_at]
  rfl

/-- The vector form of the normalised matrix read at (p, j). -/
theorem normedV_at (v : FVec Ideal (⟨2, ![R, C]⟩ : Shape) .f32) (cw εw : BitVec 32)
    (hred : (⟨2, ![R, C]⟩ : Shape).Reduces [(1 : Fin 2)] ⟨1, ![R]⟩) (hφ : FKind.Formats .f32)
    (hacc : (0x00000000#32 : BitVec 32) = FKind.add.neutral .f32 hφ)
    (hc : (⟨1, ![R]⟩ : Shape).ShapeCasts ⟨2, ![R, 1]⟩)
    (hb : (⟨2, ![R, 1]⟩ : Shape).Broadcasts ⟨2, ![R, C]⟩) (p : Fin R) (j : Fin C) :
    mulf (subf v (broadcastTo ⟨2, ![R, C]⟩ (meanColV v cw hred hφ hacc hc) hb))
      (broadcastTo ⟨2, ![R, C]⟩
        (rsqrt (addf
          (meanColV (mulf (subf v (broadcastTo ⟨2, ![R, C]⟩ (meanColV v cw hred hφ hacc hc) hb))
                          (subf v (broadcastTo ⟨2, ![R, C]⟩ (meanColV v cw hred hφ hacc hc) hb))) cw hred hφ hacc hc)
          (broadcast ⟨2, ![R, 1]⟩ (Scalar.ofBits .f32 εw)))) hb) (ix2 p j)
      = normed (Ideal.ofBits .f32 cw) (Ideal.ofBits .f32 εw) (fun j' : Fin C => v (ix2 p j')) j := by
  have hM : ∀ j' : Fin C, subf v (broadcastTo ⟨2, ![R, C]⟩ (meanColV v cw hred hφ hacc hc) hb) (ix2 p j')
      = v (ix2 p j') - mean (Ideal.ofBits .f32 cw) (fun j'' : Fin C => v (ix2 p j'')) := fun j' => by
    show v (ix2 p j') - broadcastTo ⟨2, ![R, C]⟩ (meanColV v cw hred hφ hacc hc) hb (ix2 p j') = _
    rw [broadcastTo_a1_ab_apply, meanColV_at]
  show subf v (broadcastTo ⟨2, ![R, C]⟩ (meanColV v cw hred hφ hacc hc) hb) (ix2 p j)
      * broadcastTo ⟨2, ![R, C]⟩ _ hb (ix2 p j) = _
  rw [hM, broadcastTo_a1_ab_apply]
  show _ * Ideal.rsqrt (meanColV _ cw hred hφ hacc hc (ix2 p (0 : Fin 1)) + Ideal.ofBits .f32 εw) = _
  rw [meanColV_at]
  unfold normed rstd
  refine congrArg (fun s => _ * Ideal.rsqrt (mean (Ideal.ofBits .f32 cw) s + Ideal.ofBits .f32 εw)) ?_
  funext j'
  show subf v _ (ix2 p j') * subf v _ (ix2 p j') = _
  rw [hM]

/-- A parameter vector laid out as a row and spread over the rows (vector form), read at (p, j). -/
theorem paramRowV_at {φ : FTy} (g : (⟨1, ![C]⟩ : Shape).Idx → Ideal φ)
    (hc : (⟨1, ![C]⟩ : Shape).ShapeCasts ⟨2, ![1, C]⟩) (hb : (⟨2, ![1, C]⟩ : Shape).Broadcasts ⟨2, ![R, C]⟩)
    (p : Fin R) (j : Fin C) :
    broadcastTo ⟨2, ![R, C]⟩ (shapeCast ⟨2, ![1, C]⟩ g hc) hb (ix2 p j) = g (ix1 j) := by
  rw [broadcastTo_1b_ab_apply, shapeCast_a_1a_apply]

/-! ## The host form -/

/-- The host's division and reciprocal square root read at an index. -/
theorem hostDivf_apply {s : Shape} {φ : FTy} (a b : FVec Ideal s φ) (i : s.Idx) : Host.divf a b i = Ideal.div (a i) (b i) := rfl
theorem hostRsqrt_apply {s : Shape} {φ : FTy} (a : FVec Ideal s φ) (i : s.Idx) : Host.rsqrt a i = Ideal.rsqrt (a i) := rfl

/-- A host sum over the last axis from a rank-0 zero, read at row p, is the sum of row p. -/
theorem hostSum_at (v : FVec Ideal (⟨2, ![R, C]⟩ : Shape) .f32)
    (hred' : (⟨2, ![R, C]⟩ : Shape).ReducesTo [(1 : Fin 2)] ⟨1, ![R]⟩)
    (hred : (⟨2, ![R, C]⟩ : Shape).Reduces [(1 : Fin 2)] ⟨1, ![R]⟩)
    (hu : 0 < (⟨0, ![]⟩ : Shape).numel) (p : Fin R) :
    Host.reduceAdd v (constant (⟨0, ![]⟩ : Shape) .f32 0x00000000#32) hred' hu (ix1 p) = ∑ j : Fin C, v (ix2 p j) := by
  show Ideal.hostReduceAdd hred' v (Ideal.ofBits .f32 0x00000000#32) (ix1 p) = _
  rw [Ideal.hostReduceAdd_single hred' hred, Ideal.ofBits_zero_f32, zero_add]
  refine Finset.sum_congr rfl fun k _ => congrArg v ?_
  funext a
  match a with
  | ⟨0, _⟩ => rfl
  | ⟨1, _⟩ => rfl

/-- The column of row means in the host form. -/
abbrev meanColH (v : FVec Ideal (⟨2, ![R, C]⟩ : Shape) .f32) (cw : BitVec 32)
    (hred' : (⟨2, ![R, C]⟩ : Shape).ReducesTo [(1 : Fin 2)] ⟨1, ![R]⟩) (hu : 0 < (⟨0, ![]⟩ : Shape).numel)
    (hB : (⟨1, ![R]⟩ : Shape).BroadcastsInDim ⟨2, ![R, 1]⟩ (![0] : Fin 1 → Fin 2))
    (hS : (⟨0, ![]⟩ : Shape).BroadcastsInDim ⟨2, ![R, 1]⟩ (![] : Fin 0 → Fin 2)) : FVec Ideal (⟨2, ![R, 1]⟩ : Shape) .f32 :=
  Host.divf (broadcastInDim ⟨2, ![R, 1]⟩ (![0] : Fin 1 → Fin 2) hB (Host.reduceAdd v (constant (⟨0, ![]⟩ : Shape) .f32 0x00000000#32) hred' hu))
    (broadcastInDim ⟨2, ![R, 1]⟩ (![] : Fin 0 → Fin 2) hS (constant (⟨0, ![]⟩ : Shape) .f32 cw))

theorem meanColH_at (v : FVec Ideal (⟨2, ![R, C]⟩ : Shape) .f32) (cw : BitVec 32)
    (hred' : (⟨2, ![R, C]⟩ : Shape).ReducesTo [(1 : Fin 2)] ⟨1, ![R]⟩)
    (hred : (⟨2, ![R, C]⟩ : Shape).Reduces [(1 : Fin 2)] ⟨1, ![R]⟩) (hu : 0 < (⟨0, ![]⟩ : Shape).numel)
    (hB : (⟨1, ![R]⟩ : Shape).BroadcastsInDim ⟨2, ![R, 1]⟩ (![0] : Fin 1 → Fin 2))
    (hS : (⟨0, ![]⟩ : Shape).BroadcastsInDim ⟨2, ![R, 1]⟩ (![] : Fin 0 → Fin 2)) (p : Fin R) :
    meanColH v cw hred' hu hB hS (ix2 p (0 : Fin 1)) = mean (Ideal.ofBits .f32 cw) (fun j : Fin C => v (ix2 p j)) := by
  unfold meanColH
  rw [hostDivf_apply, Cert.LibColumnVec.columnOfVector_at, Cert.LibHostBroadcast.scalar_at, hostSum_at v hred' hred hu,
    constant_apply]
  rfl

/-- The host form of the normalised matrix read at (p, j). -/
theorem normedH_at (v : FVec Ideal (⟨2, ![R, C]⟩ : Shape) .f32) (cw εw : BitVec 32)
    (hred' : (⟨2, ![R, C]⟩ : Shape).ReducesTo [(1 : Fin 2)] ⟨1, ![R]⟩)
    (hred : (⟨2, ![R, C]⟩ : Shape).Reduces [(1 : Fin 2)] ⟨1, ![R]⟩) (hu : 0 < (⟨0, ![]⟩ : Shape).numel)
    (hB : (⟨1, ![R]⟩ : Shape).BroadcastsInDim ⟨2, ![R, 1]⟩ (![0] : Fin 1 → Fin 2))
    (hS : (⟨0, ![]⟩ : Shape).BroadcastsInDim ⟨2, ![R, 1]⟩ (![] : Fin 0 → Fin 2))
    (hA : (⟨2, ![R, 1]⟩ : Shape).BroadcastsInDim ⟨2, ![R, C]⟩ (![0, 1] : Fin 2 → Fin 2))
    (sq : FVec Ideal (⟨2, ![R, C]⟩ : Shape) .f32)
    (hsq : sq = subf v (broadcastInDim ⟨2, ![R, C]⟩ (![0, 1] : Fin 2 → Fin 2) hA (meanColH v cw hred' hu hB hS)))
    (p : Fin R) (j : Fin C) :
    mulf (subf v (broadcastInDim ⟨2, ![R, C]⟩ (![0, 1] : Fin 2 → Fin 2) hA (meanColH v cw hred' hu hB hS)))
      (broadcastInDim ⟨2, ![R, C]⟩ (![0, 1] : Fin 2 → Fin 2) hA
        (Host.rsqrt (addf (meanColH (mulf sq sq) cw hred' hu hB hS)
          (broadcastInDim ⟨2, ![R, 1]⟩ (![] : Fin 0 → Fin 2) hS (constant (⟨0, ![]⟩ : Shape) .f32 εw))))) (ix2 p j)
      = normed (Ideal.ofBits .f32 cw) (Ideal.ofBits .f32 εw) (fun j' : Fin C => v (ix2 p j')) j := by
  subst hsq
  have hM : ∀ j' : Fin C, subf v (broadcastInDim ⟨2, ![R, C]⟩ (![0, 1] : Fin 2 → Fin 2) hA (meanColH v cw hred' hu hB hS)) (ix2 p j')
      = v (ix2 p j') - mean (Ideal.ofBits .f32 cw) (fun j'' : Fin C => v (ix2 p j'')) := fun j' => by
    rw [subf_apply, Cert.LibHostBroadcast.column_at, meanColH_at v cw hred' hred]
  rw [mulf_apply, hM, Cert.LibHostBroadcast.column_at, hostRsqrt_apply, addf_apply, meanColH_at _ cw hred' hred,
    Cert.LibHostBroadcast.scalar_at, constant_apply]
  unfold normed rstd
  refine congrArg (fun s => _ * Ideal.rsqrt (mean (Ideal.ofBits .f32 cw) s + Ideal.ofBits .f32 εw)) ?_
  funext j'
  rw [mulf_apply, hM]

/-- A parameter vector laid out as a row and spread over the rows (host form), read at (p, j). -/
theorem paramRowH_at {φ : FTy} (g : (⟨1, ![C]⟩ : Shape).Idx → Ideal φ)
    (hE : (⟨1, ![C]⟩ : Shape).BroadcastsInDim ⟨2, ![1, C]⟩ (![1] : Fin 1 → Fin 2))
    (hD : (⟨2, ![1, C]⟩ : Shape).BroadcastsInDim ⟨2, ![R, C]⟩ (![0, 1] : Fin 2 → Fin 2)) (p : Fin R) (j : Fin C) :
    broadcastInDim ⟨2, ![R, C]⟩ (![0, 1] : Fin 2 → Fin 2) hD (broadcastInDim ⟨2, ![1, C]⟩ (![1] : Fin 1 → Fin 2) hE g) (ix2 p j)
      = g (ix1 j) := by
  rw [Cert.LibHostBroadcast.row_at, Cert.LibColumnVec.rowOfVector_at]

end Cert.LibLayerNorm
-- ==== Proof.LibUnitRows.lean ====
/-
  A distance between unit rows, read at an entry, on the extended reals.

  For rows of length n and an offset ε:
    dot u v         = Σ_j u j · v j
    lifted h r w j  = h j + r j · dot w h            (h moved along r by its component on w)
    unitRow ε x j   = x j / max (√(dot x x)) ε       (x scaled by its length, the length kept at least ε)
    side ε a b c j  = unitRow ε a j + unitRow ε b j − unitRow ε c j
    gap ε a b c     = √(dot (side ε a b c) (side ε a b c))
  The same computation is spelled in two forms, each read here as these functions of row p of its operands:
  the vector form (a lane sum from the zero pattern, the sums cast to a column, the column spread over the
  columns) and the host form (a reduce from a rank-0 zero, the sums laid out as a column, the column spread
  over the columns along the identity map, a rank-0 constant spread to a column).
  Nothing is assumed finite: every step is a definitional reading or the re-indexing of a sum.
-/
import Idealize.ShloMosaic.Lib.ValueIdx
import Idealize.ShloMosaic.Lib.Pipeline.Value
import Idealize.ShloMosaic.Lib.ValueLayout
import Idealize.ShloMosaic.PureOps.Ideal.Laws
import proofs.«159799_j64828236366349_1_alg».proof.Proof.LibColumn
import proofs.«159799_j64828236366349_1_alg».proof.Proof.LibLayout
import proofs.«159799_j64828236366349_1_alg».proof.Proof.LibColumnVec
import proofs.«159799_j64828236366349_1_alg».proof.Proof.LibHostBroadcast
import proofs.«159799_j64828236366349_1_alg».proof.Proof.LibLayerNorm

noncomputable section

open scoped BigOperators

namespace Cert.LibUnitRows

open Idealize.ShloMosaic Idealize.ShloMosaic.ValueIdx

/-! ## The row functions -/

section Row
variable {n : ℕ}

/-- The dot product of two rows. -/
def dot (u v : Fin n → EReal) : EReal := ∑ j, u j * v j

/-- The row h moved along r by the component of h on w. -/
def lifted (h r w : Fin n → EReal) (j : Fin n) : EReal := h j + r j * dot w h

/-- The row x divided by its length, the length kept at least ε. -/
def unitRow (ε : EReal) (x : Fin n → EReal) (j : Fin n) : EReal := Ideal.div (x j) (max (Ideal.sqrt (dot x x)) ε)

/-- The sum of two unit rows less a third. -/
def side (ε : EReal) (a b c : Fin n → EReal) (j : Fin n) : EReal := unitRow ε a j + unitRow ε b j - unitRow ε c j

/-- The length of that combination. -/
def gap (ε : EReal) (a b c : Fin n → EReal) : EReal := Ideal.sqrt (dot (side ε a b c) (side ε a b c))

end Row

variable {R C : ℕ}

/-- Row p of a matrix. -/
def rowOf (v : (⟨2, ![R, C]⟩ : Shape).Idx → EReal) (p : Fin R) : Fin C → EReal := fun j => v (ix2 p j)

/-! ## The vector form -/

section VectorForm
variable (hred : (⟨2, ![R, C]⟩ : Shape).Reduces [(1 : Fin 2)] ⟨1, ![R]⟩) (hφ : FKind.Formats .f32)
  (hacc : (0x00000000#32 : BitVec 32) = FKind.add.neutral .f32 hφ)
  (hc : (⟨1, ![R]⟩ : Shape).ShapeCasts ⟨2, ![R, 1]⟩)
  (hb : (⟨2, ![R, 1]⟩ : Shape).Broadcasts ⟨2, ![R, C]⟩)

/-- The lane sums of a matrix, cast to a column and spread over the columns. -/
abbrev sumsV (v : FVec Ideal (⟨2, ![R, C]⟩ : Shape) .f32) : FVec Ideal (⟨2, ![R, C]⟩ : Shape) .f32 :=
  broadcastTo ⟨2, ![R, C]⟩
    (shapeCast ⟨2, ![R, 1]⟩ (multiReduction .add [(1 : Fin 2)] ⟨1, ![R]⟩ v 0x00000000#32 hred hφ hacc) hc) hb

theorem sumsV_at (v : FVec Ideal (⟨2, ![R, C]⟩ : Shape) .f32) (p : Fin R) (j : Fin C) :
    sumsV hred hφ hacc hc hb v (ix2 p j) = ∑ k : Fin C, v (ix2 p k) := by
  unfold sumsV
  rw [broadcastTo_a1_ab_apply, shapeCast_a_a1_apply, Cert.LibLayerNorm.laneSum_at]

/-- h + r · (the row sums of w · h), in the vector form. -/
abbrev liftedV (h r w : FVec Ideal (⟨2, ![R, C]⟩ : Shape) .f32) : FVec Ideal (⟨2, ![R, C]⟩ : Shape) .f32 :=
  addf h (mulf r (sumsV hred hφ hacc hc hb (mulf w h)))

theorem liftedV_at (h r w : FVec Ideal (⟨2, ![R, C]⟩ : Shape) .f32) (p : Fin R) (j : Fin C) :
    liftedV hred hφ hacc hc hb h r w (ix2 p j) = lifted (rowOf h p) (rowOf r p) (rowOf w p) j := by
  show h (ix2 p j) + r (ix2 p j) * sumsV hred hφ hacc hc hb (mulf w h) (ix2 p j) = _
  rw [sumsV_at]
  rfl

theorem rowOf_liftedV (h r w : FVec Ideal (⟨2, ![R, C]⟩ : Shape) .f32) (p : Fin R) :
    rowOf (liftedV hred hφ hacc hc hb h r w) p = lifted (rowOf h p) (rowOf r p) (rowOf w p) :=
  funext fun j => liftedV_at hred hφ hacc hc hb h r w p j

/-- The column of row lengths, each kept at least the entry of the column e. -/
abbrev lengthsV (x : FVec Ideal (⟨2, ![R, C]⟩ : Shape) .f32) (e : FVec Ideal (⟨2, ![R, 1]⟩ : Shape) .f32) :
    FVec Ideal (⟨2, ![R, 1]⟩ : Shape) .f32 :=
  maximumf (sqrt (shapeCast ⟨2, ![R, 1]⟩
    (multiReduction .add [(1 : Fin 2)] ⟨1, ![R]⟩ (mulf x x) 0x00000000#32 hred hφ hacc) hc)) e

/-- x divided by its rows' lengths, in the vector form. -/
abbrev unitV (x : FVec Ideal (⟨2, ![R, C]⟩ : Shape) .f32) (e : FVec Ideal (⟨2, ![R, 1]⟩ : Shape) .f32) :
    FVec Ideal (⟨2, ![R, C]⟩ : Shape) .f32 :=
  divf x (broadcastTo ⟨2, ![R, C]⟩ (lengthsV hred hφ hacc hc x e) hb)

theorem unitV_at (x : FVec Ideal (⟨2, ![R, C]⟩ : Shape) .f32) (e : FVec Ideal (⟨2, ![R, 1]⟩ : Shape) .f32)
    (ε : EReal) (p : Fin R) (he : e (ix2 p (0 : Fin 1)) = ε) (j : Fin C) :
    unitV hred hφ hacc hc hb x e (ix2 p j) = unitRow ε (rowOf x p) j := by
  show Ideal.div (x (ix2 p j)) (broadcastTo ⟨2, ![R, C]⟩ (lengthsV hred hφ hacc hc x e) hb (ix2 p j)) = _
  rw [broadcastTo_a1_ab_apply]
  show Ideal.div (x (ix2 p j)) (max (Ideal.sqrt (shapeCast ⟨2, ![R, 1]⟩
    (multiReduction .add [(1 : Fin 2)] ⟨1, ![R]⟩ (mulf x x) 0x00000000#32 hred hφ hacc) hc (ix2 p (0 : Fin 1))))
    (e (ix2 p (0 : Fin 1)))) = _
  rw [shapeCast_a_a1_apply, Cert.LibLayerNorm.laneSum_at, he]
  rfl

/-- unit a + unit b − unit c, in the vector form. -/
abbrev sideV (a b c : FVec Ideal (⟨2, ![R, C]⟩ : Shape) .f32) (ea eb ec : FVec Ideal (⟨2, ![R, 1]⟩ : Shape) .f32) :
    FVec Ideal (⟨2, ![R, C]⟩ : Shape) .f32 :=
  subf (addf (unitV hred hφ hacc hc hb a ea) (unitV hred hφ hacc hc hb b eb)) (unitV hred hφ hacc hc hb c ec)

theorem sideV_at (a b c : FVec Ideal (⟨2, ![R, C]⟩ : Shape) .f32) (ea eb ec : FVec Ideal (⟨2, ![R, 1]⟩ : Shape) .f32)
    (ε : EReal) (p : Fin R) (ha : ea (ix2 p (0 : Fin 1)) = ε) (hb' : eb (ix2 p (0 : Fin 1)) = ε)
    (hc' : ec (ix2 p (0 : Fin 1)) = ε) (j : Fin C) :
    sideV hred hφ hacc hc hb a b c ea eb ec (ix2 p j) = side ε (rowOf a p) (rowOf b p) (rowOf c p) j := by
  show unitV hred hφ hacc hc hb a ea (ix2 p j) + unitV hred hφ hacc hc hb b eb (ix2 p j)
    - unitV hred hφ hacc hc hb c ec (ix2 p j) = _
  rw [unitV_at hred hφ hacc hc hb a ea ε p ha, unitV_at hred hφ hacc hc hb b eb ε p hb',
    unitV_at hred hφ hacc hc hb c ec ε p hc']
  rfl

/-- The rows' lengths of unit a + unit b − unit c, in the vector form. -/
abbrev gapV (a b c : FVec Ideal (⟨2, ![R, C]⟩ : Shape) .f32) (ea eb ec : FVec Ideal (⟨2, ![R, 1]⟩ : Shape) .f32) :
    FVec Ideal (⟨1, ![R]⟩ : Shape) .f32 :=
  sqrt (multiReduction .add [(1 : Fin 2)] ⟨1, ![R]⟩
    (mulf (sideV hred hφ hacc hc hb a b c ea eb ec) (sideV hred hφ hacc hc hb a b c ea eb ec))
    0x00000000#32 hred hφ hacc)

theorem gapV_at (a b c : FVec Ideal (⟨2, ![R, C]⟩ : Shape) .f32) (ea eb ec : FVec Ideal (⟨2, ![R, 1]⟩ : Shape) .f32)
    (ε : EReal) (p : Fin R) (ha : ea (ix2 p (0 : Fin 1)) = ε) (hb' : eb (ix2 p (0 : Fin 1)) = ε)
    (hc' : ec (ix2 p (0 : Fin 1)) = ε) :
    gapV hred hφ hacc hc hb a b c ea eb ec (ix1 p) = gap ε (rowOf a p) (rowOf b p) (rowOf c p) := by
  show Ideal.sqrt (multiReduction .add [(1 : Fin 2)] ⟨1, ![R]⟩
    (mulf (sideV hred hφ hacc hc hb a b c ea eb ec) (sideV hred hφ hacc hc hb a b c ea eb ec))
    0x00000000#32 hred hφ hacc (ix1 p)) = _
  rw [Cert.LibLayerNorm.laneSum_at]
  refine congrArg Ideal.sqrt (Finset.sum_congr rfl fun j _ => ?_)
  show sideV hred hφ hacc hc hb a b c ea eb ec (ix2 p j) * sideV hred hφ hacc hc hb a b c ea eb ec (ix2 p j) = _
  rw [sideV_at hred hφ hacc hc hb a b c ea eb ec ε p ha hb' hc']

end VectorForm

/-! ## The host form -/

section HostForm
variable (hred' : (⟨2, ![R, C]⟩ : Shape).ReducesTo [(1 : Fin 2)] ⟨1, ![R]⟩)
  (hu : 0 < (⟨0, ![]⟩ : Shape).numel)
  (hB : (⟨1, ![R]⟩ : Shape).BroadcastsInDim ⟨2, ![R, 1]⟩ (![0] : Fin 1 → Fin 2))
  (hA : (⟨2, ![R, 1]⟩ : Shape).BroadcastsInDim ⟨2, ![R, C]⟩ (![0, 1] : Fin 2 → Fin 2))
  (hS : (⟨0, ![]⟩ : Shape).BroadcastsInDim ⟨2, ![R, 1]⟩ (![] : Fin 0 → Fin 2))

/-- The host's square root read at an index. -/
theorem hostSqrt_apply {s : Shape} {φ : FTy} (a : FVec Ideal s φ) (i : s.Idx) : Host.sqrt a i = Ideal.sqrt (a i) := rfl

/-- The row sums of a matrix as a column, in the host form. -/
abbrev sumColH (v : FVec Ideal (⟨2, ![R, C]⟩ : Shape) .f32) : FVec Ideal (⟨2, ![R, 1]⟩ : Shape) .f32 :=
  broadcastInDim ⟨2, ![R, 1]⟩ (![0] : Fin 1 → Fin 2) hB
    (Host.reduceAdd v (constant (F := Ideal) (⟨0, ![]⟩ : Shape) .f32 0x00000000#32) hred' hu)

theorem sumColH_at (hred : (⟨2, ![R, C]⟩ : Shape).Reduces [(1 : Fin 2)] ⟨1, ![R]⟩) (v : FVec Ideal (⟨2, ![R, C]⟩ : Shape) .f32) (p : Fin R) :
    sumColH hred' hu hB v (ix2 p (0 : Fin 1)) = ∑ k : Fin C, v (ix2 p k) := by
  unfold sumColH
  rw [Cert.LibColumnVec.columnOfVector_at, Cert.LibLayerNorm.hostSum_at v hred' hred hu]

/-- h + r · (the row sums of w · h), in the host form. -/
abbrev liftedH (h r w : FVec Ideal (⟨2, ![R, C]⟩ : Shape) .f32) : FVec Ideal (⟨2, ![R, C]⟩ : Shape) .f32 :=
  addf h (mulf r (broadcastInDim ⟨2, ![R, C]⟩ (![0, 1] : Fin 2 → Fin 2) hA (sumColH hred' hu hB (mulf w h))))

theorem liftedH_at (hred : (⟨2, ![R, C]⟩ : Shape).Reduces [(1 : Fin 2)] ⟨1, ![R]⟩) (h r w : FVec Ideal (⟨2, ![R, C]⟩ : Shape) .f32) (p : Fin R) (j : Fin C) :
    liftedH hred' hu hB hA h r w (ix2 p j) = lifted (rowOf h p) (rowOf r p) (rowOf w p) j := by
  show h (ix2 p j) + r (ix2 p j)
    * broadcastInDim ⟨2, ![R, C]⟩ (![0, 1] : Fin 2 → Fin 2) hA (sumColH hred' hu hB (mulf w h)) (ix2 p j) = _
  rw [Cert.LibHostBroadcast.column_at, sumColH_at hred' hu hB hred]
  rfl

theorem rowOf_liftedH (hred : (⟨2, ![R, C]⟩ : Shape).Reduces [(1 : Fin 2)] ⟨1, ![R]⟩) (h r w : FVec Ideal (⟨2, ![R, C]⟩ : Shape) .f32) (p : Fin R) :
    rowOf (liftedH hred' hu hB hA h r w) p = lifted (rowOf h p) (rowOf r p) (rowOf w p) :=
  funext fun j => liftedH_at hred' hu hB hA hred h r w p j

/-- x divided by its rows' lengths, each kept at least the constant of pattern εw, in the host form. -/
abbrev unitH (x : FVec Ideal (⟨2, ![R, C]⟩ : Shape) .f32) (εw : BitVec 32) : FVec Ideal (⟨2, ![R, C]⟩ : Shape) .f32 :=
  Host.divf x (broadcastInDim ⟨2, ![R, C]⟩ (![0, 1] : Fin 2 → Fin 2) hA
    (maximumf (Host.sqrt (sumColH hred' hu hB (mulf x x)))
      (broadcastInDim ⟨2, ![R, 1]⟩ (![] : Fin 0 → Fin 2) hS (constant (F := Ideal) (⟨0, ![]⟩ : Shape) .f32 εw))))

theorem unitH_at (hred : (⟨2, ![R, C]⟩ : Shape).Reduces [(1 : Fin 2)] ⟨1, ![R]⟩) (x : FVec Ideal (⟨2, ![R, C]⟩ : Shape) .f32) (εw : BitVec 32) (p : Fin R) (j : Fin C) :
    unitH hred' hu hB hA hS x εw (ix2 p j) = unitRow (Ideal.ofBits .f32 εw) (rowOf x p) j := by
  show Ideal.div (x (ix2 p j)) (broadcastInDim ⟨2, ![R, C]⟩ (![0, 1] : Fin 2 → Fin 2) hA
    (maximumf (Host.sqrt (sumColH hred' hu hB (mulf x x)))
      (broadcastInDim ⟨2, ![R, 1]⟩ (![] : Fin 0 → Fin 2) hS (constant (F := Ideal) (⟨0, ![]⟩ : Shape) .f32 εw))) (ix2 p j)) = _
  rw [Cert.LibHostBroadcast.column_at]
  show Ideal.div (x (ix2 p j)) (max (Ideal.sqrt (sumColH hred' hu hB (mulf x x) (ix2 p (0 : Fin 1))))
    (broadcastInDim ⟨2, ![R, 1]⟩ (![] : Fin 0 → Fin 2) hS (constant (F := Ideal) (⟨0, ![]⟩ : Shape) .f32 εw) (ix2 p (0 : Fin 1)))) = _
  rw [sumColH_at hred' hu hB hred, Cert.LibHostBroadcast.scalar_at, constant_apply]
  rfl

/-- unit a + unit b − unit c, in the host form. -/
abbrev sideH (a b c : FVec Ideal (⟨2, ![R, C]⟩ : Shape) .f32) (εw : BitVec 32) : FVec Ideal (⟨2, ![R, C]⟩ : Shape) .f32 :=
  subf (addf (unitH hred' hu hB hA hS a εw) (unitH hred' hu hB hA hS b εw)) (unitH hred' hu hB hA hS c εw)

theorem sideH_at (hred : (⟨2, ![R, C]⟩ : Shape).Reduces [(1 : Fin 2)] ⟨1, ![R]⟩) (a b c : FVec Ideal (⟨2, ![R, C]⟩ : Shape) .f32) (εw : BitVec 32) (p : Fin R) (j : Fin C) :
    sideH hred' hu hB hA hS a b c εw (ix2 p j)
      = side (Ideal.ofBits .f32 εw) (rowOf a p) (rowOf b p) (rowOf c p) j := by
  show unitH hred' hu hB hA hS a εw (ix2 p j) + unitH hred' hu hB hA hS b εw (ix2 p j)
    - unitH hred' hu hB hA hS c εw (ix2 p j) = _
  rw [unitH_at hred' hu hB hA hS hred, unitH_at hred' hu hB hA hS hred, unitH_at hred' hu hB hA hS hred]
  rfl

/-- The rows' lengths of a matrix s · s summed along the rows, in the host form, for s any matrix. -/
abbrev lengthH (s : FVec Ideal (⟨2, ![R, C]⟩ : Shape) .f32) : FVec Ideal (⟨1, ![R]⟩ : Shape) .f32 :=
  Host.sqrt (Host.reduceAdd (mulf s s) (constant (F := Ideal) (⟨0, ![]⟩ : Shape) .f32 0x00000000#32) hred' hu)

theorem gapH_at (hred : (⟨2, ![R, C]⟩ : Shape).Reduces [(1 : Fin 2)] ⟨1, ![R]⟩) (a b c : FVec Ideal (⟨2, ![R, C]⟩ : Shape) .f32) (εw : BitVec 32) (p : Fin R) :
    lengthH hred' hu (sideH hred' hu hB hA hS a b c εw) (ix1 p)
      = gap (Ideal.ofBits .f32 εw) (rowOf a p) (rowOf b p) (rowOf c p) := by
  show Ideal.sqrt (Host.reduceAdd (mulf (sideH hred' hu hB hA hS a b c εw) (sideH hred' hu hB hA hS a b c εw))
    (constant (F := Ideal) (⟨0, ![]⟩ : Shape) .f32 0x00000000#32) hred' hu (ix1 p)) = _
  rw [Cert.LibLayerNorm.hostSum_at _ hred' hred hu]
  refine congrArg Ideal.sqrt (Finset.sum_congr rfl fun j _ => ?_)
  show sideH hred' hu hB hA hS a b c εw (ix2 p j) * sideH hred' hu hB hA hS a b c εw (ix2 p j) = _
  rw [sideH_at hred' hu hB hA hS hred]

end HostForm

end Cert.LibUnitRows

end
-- ==== Proof.Spec.lean ====
/-
  The margin loss of a batch of triple pairs, as one function of the twelve gathered arrays.

  Every row p of the batch carries a positive and a negative triple. A triple is six rows of length 256:
  the head h, relation r and tail t, and their projection rows hp, rp, tp. Its distance is

      ‖ u(h + rp·⟨hp, h⟩) + u(r) − u(t + rp·⟨tp, t⟩) ‖,     u(x) = x / max ‖x‖ ε,

  and the loss of row p is  max (distance of the positive triple − distance of the negative triple + 1) 0.
  All of it is read on the extended reals; ε, 1 and 0 are the values of their f32 patterns.
-/
import proofs.«159799_j64828236366349_1_alg».proof.Proof.LibUnitRows

noncomputable section

namespace Cert.MarginLoss

open Idealize.ShloMosaic Idealize.ShloMosaic.ValueIdx Cert.LibUnitRows

/-- The least length a row is divided by: the value of the f32 pattern nearest 1e-12. -/
abbrev floorLen : EReal := Ideal.ofBits .f32 0x2B8CBCCC#32

/-- The margin: the value of the f32 pattern of 1. -/
abbrev margin : EReal := Ideal.ofBits .f32 0x3F800000#32

/-- The floor of the loss: the value of the f32 zero pattern. -/
abbrev lossFloor : EReal := Ideal.ofBits .f32 0x00000000#32

/-- The distance of one triple: head and tail moved along the relation's projection row by their components on
    their own projection rows, the three rows scaled to unit length, head plus relation less tail, its length. -/
def tripleGap (h r t hp rp tp : Fin 256 → EReal) : EReal :=
  gap floorLen (lifted h rp hp) r (lifted t rp tp)

/-- The loss of one batch row from the six rows of its positive triple and the six of its negative triple. -/
def rowLoss (h r t hp rp tp h' r' t' hp' rp' tp' : Fin 256 → EReal) : EReal :=
  max (tripleGap h r t hp rp tp - tripleGap h' r' t' hp' rp' tp' + margin) lossFloor

/-- The result array: entry p is the loss of row p of the twelve gathered arrays, in the order
    head, relation, tail, head projection, relation projection, tail projection, positive triple first. -/
def lossOf (a0 a1 a2 a3 a4 a5 a6 a7 a8 a9 a10 a11 : (⟨2, ![8192, 256]⟩ : Shape).Idx → EReal) :
    (⟨1, ![8192]⟩ : Shape).Idx → EReal :=
  fun i => rowLoss (rowOf a0 (i 0)) (rowOf a1 (i 0)) (rowOf a2 (i 0)) (rowOf a3 (i 0)) (rowOf a4 (i 0)) (rowOf a5 (i 0))
    (rowOf a6 (i 0)) (rowOf a7 (i 0)) (rowOf a8 (i 0)) (rowOf a9 (i 0)) (rowOf a10 (i 0)) (rowOf a11 (i 0))

end Cert.MarginLoss

end
-- ==== Proof.KernelBlock.lean ====
/-
  One block of the kernel's result, read at an entry.

  At a grid point the body loads twelve blocks of 512 rows — for the positive and then the negative triple: head,
  relation, tail, head projection, relation projection, tail projection — and stores 512 losses. Entry p of what it
  stores depends on row p of each block only: every lane sum runs along a row, every column of sums or lengths is
  spread back along the same row, and the rest is pointwise. So entry p is the loss of the twelve rows p.
-/
import proofs.«159799_j64828236366349_1_alg».proof.Proof.Gen.KernelIdeal.Value
import proofs.«159799_j64828236366349_1_alg».proof.Proof.LibUnitRows
import proofs.«159799_j64828236366349_1_alg».proof.Proof.Spec

noncomputable section

namespace Cert.KernelIdeal.Block

open Cert.KernelIdeal Cert.KernelIdeal.Gen Cert.KernelIdeal.Value Idealize.ShloMosaic Idealize.ShloMosaic.ValueIdx
open Cert.LibUnitRows Cert.MarginLoss

theorem hz : (![0, 0] : Fin 2 → Nat) = fun _ => 0 := funext fun a => by fin_cases a <;> rfl

/-- The column holding the least length in every row. -/
abbrev floorCol : FVec Ideal S512x1 .f32 := broadcast S512x1 (Scalar.ofBits .f32 0x2B8CBCCC#32)

/-- A loaded block recast to its own shape. -/
abbrev same (P : Vec Ideal S512x256 .f32) : FVec Ideal S512x256 .f32 := shapeCast S512x256 P shapeCasts_S512x256_S512x256

theorem same_eq (P : Vec Ideal S512x256 .f32) : same P = P := shapeCast_self P _

/-- h + r · (row sums of w · h) on a block. -/
abbrev lift (h r w : FVec Ideal S512x256 .f32) : FVec Ideal S512x256 .f32 :=
  liftedV (R := 512) (C := 256) reduces_S512x256_S512 (.inl rfl) rfl shapeCasts_S512_S512x1 broadcasts_S512x1_S512x256 h r w

theorem rowOf_lift (h r w : FVec Ideal S512x256 .f32) (p : Fin 512) :
    rowOf (R := 512) (C := 256) (lift h r w) p = lifted (rowOf (R := 512) (C := 256) h p) (rowOf (R := 512) (C := 256) r p) (rowOf (R := 512) (C := 256) w p) :=
  rowOf_liftedV (R := 512) (C := 256) reduces_S512x256_S512 (.inl rfl) rfl shapeCasts_S512_S512x1 broadcasts_S512x1_S512x256 h r w p

/-- The rows' distances ‖unit a + unit b − unit c‖ on a block. -/
abbrev dist (a b c : FVec Ideal S512x256 .f32) : FVec Ideal S512 .f32 :=
  gapV (R := 512) (C := 256) reduces_S512x256_S512 (.inl rfl) rfl shapeCasts_S512_S512x1 broadcasts_S512x1_S512x256
    a b c floorCol floorCol floorCol

theorem dist_at (a b c : FVec Ideal S512x256 .f32) (p : Fin 512) :
    dist a b c (ix1 p) = gap floorLen (rowOf (R := 512) (C := 256) a p) (rowOf (R := 512) (C := 256) b p) (rowOf (R := 512) (C := 256) c p) :=
  gapV_at (R := 512) (C := 256) reduces_S512x256_S512 (.inl rfl) rfl shapeCasts_S512_S512x1 broadcasts_S512x1_S512x256
    a b c floorCol floorCol floorCol floorLen p rfl rfl rfl

/-- The block function the generated value leg names, at entry p, is the loss of the twelve rows p (its variables are
    numbered by first use: head, relation projection, head projection, relation, tail, tail projection). -/
theorem E12_at (P0 P1 P2 P3 P4 P5 P6 P7 P8 P9 P10 P11 : Vec Ideal S512x256 .f32) (p : Fin 512) :
    E12 (F := Ideal) P0 P1 P2 P3 P4 P5 P6 P7 P8 P9 P10 P11 (ix1 p)
      = rowLoss (rowOf (R := 512) (C := 256) P0 p) (rowOf (R := 512) (C := 256) P3 p) (rowOf (R := 512) (C := 256) P4 p)
          (rowOf (R := 512) (C := 256) P2 p) (rowOf (R := 512) (C := 256) P1 p) (rowOf (R := 512) (C := 256) P5 p)
          (rowOf (R := 512) (C := 256) P6 p) (rowOf (R := 512) (C := 256) P9 p) (rowOf (R := 512) (C := 256) P10 p)
          (rowOf (R := 512) (C := 256) P8 p) (rowOf (R := 512) (C := 256) P7 p) (rowOf (R := 512) (C := 256) P11 p) := by
  have h0 : ix12_0 (ix1 p) = ix1 p := funext fun a => by match a with | ⟨0, _⟩ => rfl
  have h1 : ix12_1 (ix1 p) = ix1 p := funext fun a => by match a with | ⟨0, _⟩ => rfl
  show max (dist (lift (same P0) (same P1) (same P2)) (same P3) (lift (same P4) (same P1) (same P5)) (ix12_0 (ix1 p))
      - dist (lift (same P6) (same P7) (same P8)) (same P9) (lift (same P10) (same P7) (same P11)) (ix12_1 (ix1 p))
      + margin) lossFloor = _
  rw [h0, h1, dist_at, dist_at, rowOf_lift, rowOf_lift, rowOf_lift, rowOf_lift]
  simp only [same_eq]
  rfl

/-- What the body leaves in the output block, at entry p, is the loss of the twelve rows p of the blocks it loaded
    (in the windows' order: positive head, relation, tail, their projections, then the negative triple's). -/
theorem out_at (x0 x1 x2 x3 x4 x5 x6 x7 x8 x9 x10 x11 : Vec Ideal S512x256 .f32) (p : Fin 512) :
    out0_12 x0 x1 x2 x3 x4 x5 x6 x7 x8 x9 x10 x11 (ix1 p)
      = rowLoss (rowOf (R := 512) (C := 256) x0 p) (rowOf (R := 512) (C := 256) x1 p) (rowOf (R := 512) (C := 256) x2 p) (rowOf (R := 512) (C := 256) x3 p) (rowOf (R := 512) (C := 256) x4 p) (rowOf (R := 512) (C := 256) x5 p) (rowOf (R := 512) (C := 256) x6 p) (rowOf (R := 512) (C := 256) x7 p) (rowOf (R := 512) (C := 256) x8 p) (rowOf (R := 512) (C := 256) x9 p) (rowOf (R := 512) (C := 256) x10 p) (rowOf (R := 512) (C := 256) x11 p) := by
  unfold out0_12
  simp only [View.ld_unit_zero (S := S512x256) hz]
  rw [canon12_eq x0 x4 x3 x1 x2 x5 x6 x10 x9 x7 x8 x11 (ix1 p)]
  exact E12_at x0 x4 x3 x1 x2 x5 x6 x10 x9 x7 x8 x11 p

end Cert.KernelIdeal.Block

end
-- ==== Proof.KernelRows.lean ====
/-
  The windows' blocks as rows of their arrays.

  The grid has 16 points. At point t input window w reads block (t, 0) of its [8192, 256] array, that is rows
  512·t … 512·t + 511 and all 256 columns; the output window covers entries 512·t … 512·t + 511 of the result.
  So row q of an input block at point t is row 512·t + q of the array, whatever the array holds.
-/
import proofs.«159799_j64828236366349_1_alg».proof.Proof.Gen.KernelIdeal.Frame
import Idealize.ShloMosaic.Lib.Pipeline.Value
import Idealize.ShloMosaic.Lib.ValueIdx
import Idealize.ShloMosaic.PureOps.Ideal

set_option maxRecDepth 16384

noncomputable section

namespace Cert.KernelIdeal.Rows

open Cert.KernelIdeal Cert.KernelIdeal.Gen Idealize.ShloMosaic Idealize.ShloMosaic.TcCoe Idealize.SL.Sem
open Idealize.ShloMosaic.ValueIdx

/-! ## The index maps, decided over the 16 points: window w's block at point t is block (t, 0); the output's is block t -/

theorem idx_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx_3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx_4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx_5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx_6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem idx_7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem idx_8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem idx_9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem idx_10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)
theorem idx_11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
theorem idx_12 : ∀ t : Fin cfg0.N, win0_12.index t (0 : Fin 1) = t.val :=
  (by decide +kernel : ∀ t : Fin grid0.N, win0_12.index t (0 : Fin 1) = t.val)

/-! ## Row q of window w's block at point t is row 512·t + q of the array it is read off -/

theorem readrow_0 (A : S8192x256.Idx → EReal) (t : Fin cfg0.N) (q : Fin 512) (k : Fin 256) (r : Fin 8192)
    (hr : r.val = t.val * 512 + q.val) :
    ((cfg0.win 0).blk t).view.read (Elt Ideal) A (ix2 q k) = A (ix2 r k) := by
  have hi := idx_0 t
  rw [View.read_apply]
  refine congrArg A ?_
  funext a
  apply Fin.ext
  match a with
  | ⟨0, _⟩ => show win0_0.index t (0 : Fin 2) * 512 + 1 * q.val = r.val; rw [hi.1, hr]; omega
  | ⟨1, _⟩ => show win0_0.index t (1 : Fin 2) * 256 + 1 * k.val = k.val; rw [hi.2]; omega

theorem readrow_1 (A : S8192x256.Idx → EReal) (t : Fin cfg0.N) (q : Fin 512) (k : Fin 256) (r : Fin 8192)
    (hr : r.val = t.val * 512 + q.val) :
    ((cfg0.win 1).blk t).view.read (Elt Ideal) A (ix2 q k) = A (ix2 r k) := by
  have hi := idx_1 t
  rw [View.read_apply]
  refine congrArg A ?_
  funext a
  apply Fin.ext
  match a with
  | ⟨0, _⟩ => show win0_1.index t (0 : Fin 2) * 512 + 1 * q.val = r.val; rw [hi.1, hr]; omega
  | ⟨1, _⟩ => show win0_1.index t (1 : Fin 2) * 256 + 1 * k.val = k.val; rw [hi.2]; omega

theorem readrow_2 (A : S8192x256.Idx → EReal) (t : Fin cfg0.N) (q : Fin 512) (k : Fin 256) (r : Fin 8192)
    (hr : r.val = t.val * 512 + q.val) :
    ((cfg0.win 2).blk t).view.read (Elt Ideal) A (ix2 q k) = A (ix2 r k) := by
  have hi := idx_2 t
  rw [View.read_apply]
  refine congrArg A ?_
  funext a
  apply Fin.ext
  match a with
  | ⟨0, _⟩ => show win0_2.index t (0 : Fin 2) * 512 + 1 * q.val = r.val; rw [hi.1, hr]; omega
  | ⟨1, _⟩ => show win0_2.index t (1 : Fin 2) * 256 + 1 * k.val = k.val; rw [hi.2]; omega

theorem readrow_3 (A : S8192x256.Idx → EReal) (t : Fin cfg0.N) (q : Fin 512) (k : Fin 256) (r : Fin 8192)
    (hr : r.val = t.val * 512 + q.val) :
    ((cfg0.win 3).blk t).view.read (Elt Ideal) A (ix2 q k) = A (ix2 r k) := by
  have hi := idx_3 t
  rw [View.read_apply]
  refine congrArg A ?_
  funext a
  apply Fin.ext
  match a with
  | ⟨0, _⟩ => show win0_3.index t (0 : Fin 2) * 512 + 1 * q.val = r.val; rw [hi.1, hr]; omega
  | ⟨1, _⟩ => show win0_3.index t (1 : Fin 2) * 256 + 1 * k.val = k.val; rw [hi.2]; omega

theorem readrow_4 (A : S8192x256.Idx → EReal) (t : Fin cfg0.N) (q : Fin 512) (k : Fin 256) (r : Fin 8192)
    (hr : r.val = t.val * 512 + q.val) :
    ((cfg0.win 4).blk t).view.read (Elt Ideal) A (ix2 q k) = A (ix2 r k) := by
  have hi := idx_4 t
  rw [View.read_apply]
  refine congrArg A ?_
  funext a
  apply Fin.ext
  match a with
  | ⟨0, _⟩ => show win0_4.index t (0 : Fin 2) * 512 + 1 * q.val = r.val; rw [hi.1, hr]; omega
  | ⟨1, _⟩ => show win0_4.index t (1 : Fin 2) * 256 + 1 * k.val = k.val; rw [hi.2]; omega

theorem readrow_5 (A : S8192x256.Idx → EReal) (t : Fin cfg0.N) (q : Fin 512) (k : Fin 256) (r : Fin 8192)
    (hr : r.val = t.val * 512 + q.val) :
    ((cfg0.win 5).blk t).view.read (Elt Ideal) A (ix2 q k) = A (ix2 r k) := by
  have hi := idx_5 t
  rw [View.read_apply]
  refine congrArg A ?_
  funext a
  apply Fin.ext
  match a with
  | ⟨0, _⟩ => show win0_5.index t (0 : Fin 2) * 512 + 1 * q.val = r.val; rw [hi.1, hr]; omega
  | ⟨1, _⟩ => show win0_5.index t (1 : Fin 2) * 256 + 1 * k.val = k.val; rw [hi.2]; omega

theorem readrow_6 (A : S8192x256.Idx → EReal) (t : Fin cfg0.N) (q : Fin 512) (k : Fin 256) (r : Fin 8192)
    (hr : r.val = t.val * 512 + q.val) :
    ((cfg0.win 6).blk t).view.read (Elt Ideal) A (ix2 q k) = A (ix2 r k) := by
  have hi := idx_6 t
  rw [View.read_apply]
  refine congrArg A ?_
  funext a
  apply Fin.ext
  match a with
  | ⟨0, _⟩ => show win0_6.index t (0 : Fin 2) * 512 + 1 * q.val = r.val; rw [hi.1, hr]; omega
  | ⟨1, _⟩ => show win0_6.index t (1 : Fin 2) * 256 + 1 * k.val = k.val; rw [hi.2]; omega

theorem readrow_7 (A : S8192x256.Idx → EReal) (t : Fin cfg0.N) (q : Fin 512) (k : Fin 256) (r : Fin 8192)
    (hr : r.val = t.val * 512 + q.val) :
    ((cfg0.win 7).blk t).view.read (Elt Ideal) A (ix2 q k) = A (ix2 r k) := by
  have hi := idx_7 t
  rw [View.read_apply]
  refine congrArg A ?_
  funext a
  apply Fin.ext
  match a with
  | ⟨0, _⟩ => show win0_7.index t (0 : Fin 2) * 512 + 1 * q.val = r.val; rw [hi.1, hr]; omega
  | ⟨1, _⟩ => show win0_7.index t (1 : Fin 2) * 256 + 1 * k.val = k.val; rw [hi.2]; omega

theorem readrow_8 (A : S8192x256.Idx → EReal) (t : Fin cfg0.N) (q : Fin 512) (k : Fin 256) (r : Fin 8192)
    (hr : r.val = t.val * 512 + q.val) :
    ((cfg0.win 8).blk t).view.read (Elt Ideal) A (ix2 q k) = A (ix2 r k) := by
  have hi := idx_8 t
  rw [View.read_apply]
  refine congrArg A ?_
  funext a
  apply Fin.ext
  match a with
  | ⟨0, _⟩ => show win0_8.index t (0 : Fin 2) * 512 + 1 * q.val = r.val; rw [hi.1, hr]; omega
  | ⟨1, _⟩ => show win0_8.index t (1 : Fin 2) * 256 + 1 * k.val = k.val; rw [hi.2]; omega

theorem readrow_9 (A : S8192x256.Idx → EReal) (t : Fin cfg0.N) (q : Fin 512) (k : Fin 256) (r : Fin 8192)
    (hr : r.val = t.val * 512 + q.val) :
    ((cfg0.win 9).blk t).view.read (Elt Ideal) A (ix2 q k) = A (ix2 r k) := by
  have hi := idx_9 t
  rw [View.read_apply]
  refine congrArg A ?_
  funext a
  apply Fin.ext
  match a with
  | ⟨0, _⟩ => show win0_9.index t (0 : Fin 2) * 512 + 1 * q.val = r.val; rw [hi.1, hr]; omega
  | ⟨1, _⟩ => show win0_9.index t (1 : Fin 2) * 256 + 1 * k.val = k.val; rw [hi.2]; omega

theorem readrow_10 (A : S8192x256.Idx → EReal) (t : Fin cfg0.N) (q : Fin 512) (k : Fin 256) (r : Fin 8192)
    (hr : r.val = t.val * 512 + q.val) :
    ((cfg0.win 10).blk t).view.read (Elt Ideal) A (ix2 q k) = A (ix2 r k) := by
  have hi := idx_10 t
  rw [View.read_apply]
  refine congrArg A ?_
  funext a
  apply Fin.ext
  match a with
  | ⟨0, _⟩ => show win0_10.index t (0 : Fin 2) * 512 + 1 * q.val = r.val; rw [hi.1, hr]; omega
  | ⟨1, _⟩ => show win0_10.index t (1 : Fin 2) * 256 + 1 * k.val = k.val; rw [hi.2]; omega

theorem readrow_11 (A : S8192x256.Idx → EReal) (t : Fin cfg0.N) (q : Fin 512) (k : Fin 256) (r : Fin 8192)
    (hr : r.val = t.val * 512 + q.val) :
    ((cfg0.win 11).blk t).view.read (Elt Ideal) A (ix2 q k) = A (ix2 r k) := by
  have hi := idx_11 t
  rw [View.read_apply]
  refine congrArg A ?_
  funext a
  apply Fin.ext
  match a with
  | ⟨0, _⟩ => show win0_11.index t (0 : Fin 2) * 512 + 1 * q.val = r.val; rw [hi.1, hr]; omega
  | ⟨1, _⟩ => show win0_11.index t (1 : Fin 2) * 256 + 1 * k.val = k.val; rw [hi.2]; omega

end Cert.KernelIdeal.Rows

end
-- ==== Proof.KernelValue.lean ====
/-
  From the blocks to the whole result array.

  Entry q of what grid point t writes back is the loss of rows q of the twelve blocks it loaded, which are rows
  512·t + q of the twelve arrays; the 16 output blocks tile the result. So the result array is, entry by entry, the
  loss of the twelve arrays' rows.
-/
import proofs.«159799_j64828236366349_1_alg».proof.Proof.Gen.KernelIdeal.Value
import proofs.«159799_j64828236366349_1_alg».proof.Proof.KernelBlock
import proofs.«159799_j64828236366349_1_alg».proof.Proof.KernelRows
import Idealize.ShloMosaic.Lib.Pipeline.Value

set_option maxRecDepth 16384

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.LibUnitRows Cert.MarginLoss Cert.KernelIdeal.Block Cert.KernelIdeal.Rows

/-! ## What a point writes back, over any twelve arrays -/

/-- Entry q of the body's result on blocks whose rows q are rows r of twelve arrays is entry r of the arrays' loss. -/
theorem point_eq (x0 x1 x2 x3 x4 x5 x6 x7 x8 x9 x10 x11 : Vec Ideal S512x256 .f32)
    (a0 a1 a2 a3 a4 a5 a6 a7 a8 a9 a10 a11 : S8192x256.Idx → EReal) (q : Fin 512) (r : Fin 8192)
    (h0 : ∀ k : Fin 256, x0 (ix2 q k) = a0 (ix2 r k))
    (h1 : ∀ k : Fin 256, x1 (ix2 q k) = a1 (ix2 r k))
    (h2 : ∀ k : Fin 256, x2 (ix2 q k) = a2 (ix2 r k))
    (h3 : ∀ k : Fin 256, x3 (ix2 q k) = a3 (ix2 r k))
    (h4 : ∀ k : Fin 256, x4 (ix2 q k) = a4 (ix2 r k))
    (h5 : ∀ k : Fin 256, x5 (ix2 q k) = a5 (ix2 r k))
    (h6 : ∀ k : Fin 256, x6 (ix2 q k) = a6 (ix2 r k))
    (h7 : ∀ k : Fin 256, x7 (ix2 q k) = a7 (ix2 r k))
    (h8 : ∀ k : Fin 256, x8 (ix2 q k) = a8 (ix2 r k))
    (h9 : ∀ k : Fin 256, x9 (ix2 q k) = a9 (ix2 r k))
    (h10 : ∀ k : Fin 256, x10 (ix2 q k) = a10 (ix2 r k))
    (h11 : ∀ k : Fin 256, x11 (ix2 q k) = a11 (ix2 r k)) :
    out0_12 x0 x1 x2 x3 x4 x5 x6 x7 x8 x9 x10 x11 (ix1 q) = lossOf a0 a1 a2 a3 a4 a5 a6 a7 a8 a9 a10 a11 (ix1 r) := by
  have e0 : rowOf (R := 512) (C := 256) x0 q = rowOf (R := 8192) (C := 256) a0 r := funext h0
  have e1 : rowOf (R := 512) (C := 256) x1 q = rowOf (R := 8192) (C := 256) a1 r := funext h1
  have e2 : rowOf (R := 512) (C := 256) x2 q = rowOf (R := 8192) (C := 256) a2 r := funext h2
  have e3 : rowOf (R := 512) (C := 256) x3 q = rowOf (R := 8192) (C := 256) a3 r := funext h3
  have e4 : rowOf (R := 512) (C := 256) x4 q = rowOf (R := 8192) (C := 256) a4 r := funext h4
  have e5 : rowOf (R := 512) (C := 256) x5 q = rowOf (R := 8192) (C := 256) a5 r := funext h5
  have e6 : rowOf (R := 512) (C := 256) x6 q = rowOf (R := 8192) (C := 256) a6 r := funext h6
  have e7 : rowOf (R := 512) (C := 256) x7 q = rowOf (R := 8192) (C := 256) a7 r := funext h7
  have e8 : rowOf (R := 512) (C := 256) x8 q = rowOf (R := 8192) (C := 256) a8 r := funext h8
  have e9 : rowOf (R := 512) (C := 256) x9 q = rowOf (R := 8192) (C := 256) a9 r := funext h9
  have e10 : rowOf (R := 512) (C := 256) x10 q = rowOf (R := 8192) (C := 256) a10 r := funext h10
  have e11 : rowOf (R := 512) (C := 256) x11 q = rowOf (R := 8192) (C := 256) a11 r := funext h11
  rw [out_at, e0, e1, e2, e3, e4, e5, e6, e7, e8, e9, e10, e11]
  rfl

/-- The same with the blocks read off the arrays at point t: entry q of the body's result there is entry
    512·t + q of the arrays' loss. -/
theorem point_of_arrays (A0 A1 A2 A3 A4 A5 A6 A7 A8 A9 A10 A11 : S8192x256.Idx → EReal) (t : Fin cfg0.N) (q : Fin 512) (r : Fin 8192)
    (hr : r.val = t.val * 512 + q.val) :
    out0_12 (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) A4) (((cfg0.win 5).blk t).view.read (Elt Ideal) A5) (((cfg0.win 6).blk t).view.read (Elt Ideal) A6) (((cfg0.win 7).blk t).view.read (Elt Ideal) A7) (((cfg0.win 8).blk t).view.read (Elt Ideal) A8) (((cfg0.win 9).blk t).view.read (Elt Ideal) A9) (((cfg0.win 10).blk t).view.read (Elt Ideal) A10) (((cfg0.win 11).blk t).view.read (Elt Ideal) A11) (ix1 q)
      = lossOf A0 A1 A2 A3 A4 A5 A6 A7 A8 A9 A10 A11 (ix1 r) :=
  point_eq _ _ _ _ _ _ _ _ _ _ _ _ A0 A1 A2 A3 A4 A5 A6 A7 A8 A9 A10 A11 q r
    (fun k => readrow_0 A0 t q k r hr)
    (fun k => readrow_1 A1 t q k r hr)
    (fun k => readrow_2 A2 t q k r hr)
    (fun k => readrow_3 A3 t q k r hr)
    (fun k => readrow_4 A4 t q k r hr)
    (fun k => readrow_5 A5 t q k r hr)
    (fun k => readrow_6 A6 t q k r hr)
    (fun k => readrow_7 A7 t q k r hr)
    (fun k => readrow_8 A8 t q k r hr)
    (fun k => readrow_9 A9 t q k r hr)
    (fun k => readrow_10 A10 t q k r hr)
    (fun k => readrow_11 A11 t q k r hr)

variable (m : (ℓ : Loc nD τ sig) → Buf (Elt Ideal) ℓ) (ρ : Dev nD → PrngReg)

/-- The result array as a function of what the region finds in its twelve windows. -/
abbrev G (c : Dev nD) : S8192.Idx → EReal :=
  lossOf (V m c main_v18) (V m c main_v25) (V m c main_v32) (V m c main_v39) (V m c main_v46) (V m c main_v53) (V m c main_v60) (V m c main_v67) (V m c main_v74) (V m c main_v81) (V m c main_v88) (V m c main_v95)

/-- WHAT POINT t WRITES BACK is block t of the loss of the twelve arrays. -/
theorem flushed_eq (c : Dev nD) (t : Fin cfg0.N) :
    (dats m 0 c).flushed 12 t = ((cfg0.win 12).blk t).view.read (Elt Ideal) (G m c) := by
  rw [flushed12]
  have h12 : win0_12.index t (0 : Fin 1) = t.val := idx_12 t
  have hN : t.val < 16 := by have h := t.isLt; have e16 : cfg0.N = 16 := N_0; omega
  funext j
  obtain ⟨q, rfl⟩ : ∃ q : Fin 512, j = ix1 q := ⟨j 0, eq_ix1 j⟩
  have hq : q.val < 512 := q.isLt
  have e : ((cfg0.win 12).blk t).view.emb (ix1 q) = ix1 (⟨t.val * 512 + q.val, by omega⟩ : Fin 8192) := by
    funext a
    apply Fin.ext
    match a with
    | ⟨0, _⟩ => show win0_12.index t (0 : Fin 1) * 512 + 1 * q.val = t.val * 512 + q.val; rw [h12]; omega
  have hx : (cfg0.win 12).xinj (grid0.coords t) (ix1 q) = ix1 q :=
    funext fun a => by match a with | ⟨0, _⟩ => rfl
  rw [View.read_apply, e]
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
      ((cfg0.win 12).xinj (grid0.coords t) (ix1 q)) = _
  rw [hx]
  unfold iblk
  exact point_of_arrays (V m c main_v18) (V m c main_v25) (V m c main_v32) (V m c main_v39) (V m c main_v46) (V m c main_v53) (V m c main_v60) (V m c main_v67) (V m c main_v74) (V m c main_v81) (V m c main_v88) (V m c main_v95) t q ⟨t.val * 512 + q.val, by omega⟩ rfl

/-! ## The cover -/

/-- An entry of the result is in point t's block iff it is in the block's range. -/
theorem mem_blk (t : Fin cfg0.N) (i : S8192.Idx) :
    i ∈ ((cfg0.win 12).blk t).view.set ↔ ∀ a : Fin 1, win0_12.index t a * S512.size a ≤ (i a).val ∧ (i a).val < win0_12.index t a * S512.size a + S512.size a := by
  show i ∈ ((View.whole main_v96).slice (win0_12.rect t)).set ↔ _
  rw [View.set_slice_whole, Rect.mem_set_unit]
  exact Iff.rfl

/-- Entry i of the result is in the block of point i / 512. -/
theorem cover (i : S8192.Idx) : ∃ t : Fin cfg0.N, (cfg0.win 12).flush t = true ∧ i ∈ ((cfg0.win 12).blk t).view.set := by
  have hi : (i 0).val < 8192 := (i 0).isLt
  have hN : cfg0.N = 16 := N_0
  refine ⟨⟨(i 0).val / 512, by rw [hN]; omega⟩, flush0_12 _, ?_⟩
  rw [mem_blk]
  intro a
  match a with
  | ⟨0, _⟩ =>
    show win0_12.index ⟨(i 0).val / 512, _⟩ (0 : Fin 1) * 512 ≤ (i 0).val ∧ (i 0).val < win0_12.index ⟨(i 0).val / 512, _⟩ (0 : Fin 1) * 512 + 512
    rw [idx_12]
    show (i 0).val / 512 * 512 ≤ (i 0).val ∧ (i 0).val < (i 0).val / 512 * 512 + 512
    omega

/-- THE RESULT ARRAY after the run is the loss of the twelve arrays. -/
theorem final (c : Dev nD) : (dats m 0 c).arrAt 12 cfg0.N = G m c :=
  (dats m 0 c).arrAt_eq_of_cover 12 (G m c) (fun t _ => flushed_eq m c t) cover

/-- The run, read: the result array at the loss of the twelve arrays the region finds, the arguments unchanged. -/
theorem run : θ_run defs (onTc (τ := τ) (main (F := Ideal))) ⟨m, fun _ => 0, ρ⟩ fun r => ∀ c : Dev nD,
      r.2.mem ((c : Thread nD τ).loc main_v96) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Whole

end
-- ==== Proof.KernelGatherDefs.lean ====
/-
  The arrays the region finds in its twelve windows: the words they are stated in.

  Before the region @main cuts the three columns out of each index array, turns a negative row number into one
  counted from the end, and gathers rows of the four tables: heads and tails from the entity tables by columns 0
  and 2, relations from the relation tables by column 1; the positive triple by the first index array, the negative
  by the second. Each window's array is one such gather of the arguments.
-/
import proofs.«159799_j64828236366349_1_alg».proof.Proof.Gen.KernelIdeal.Frame
import Idealize.ShloMosaic.Lib.StableHlo.Run
import Idealize.ShloMosaic.PureOps.Ideal

set_option maxRecDepth 16384

noncomputable section

namespace Cert.KernelIdeal.Gathered

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The rows of a table picked by a vector of row numbers, a negative number counted from the end. -/
abbrev pick (tbl : FVec Ideal S100000x256 .f32) (x : IVec S8192 32) : FVec Ideal S8192x256 .f32 :=
  Host.gather gather_S100000x256_S8192x1_S8192x256_1_0_n_n_0_1_1256 tbl
    (broadcastInDim S8192x1 ![0] bcast_S8192_S8192x1_0
      (select (cmpi .slt x (broadcastInDim S8192 ![] bcast_S_S8192 (constantI S_ 32 0#32)))
        (addi x (broadcastInDim S8192 ![] bcast_S_S8192 (constantI S_ 32 100000#32))) x))

/-- Column 0, 1, 2 of an index array as a vector. -/
abbrev col0 (X : IVec S8192x3 32) : IVec S8192 32 :=
  shapeCast S8192 (extractStridedSlice S8192x1 ![0, 0] X slices_S8192x3_S8192x1_0_0) shapeCasts_S8192x1_S8192
abbrev col1 (X : IVec S8192x3 32) : IVec S8192 32 :=
  shapeCast S8192 (extractStridedSlice S8192x1 ![0, 1] X slices_S8192x3_S8192x1_0_1) shapeCasts_S8192x1_S8192
abbrev col2 (X : IVec S8192x3 32) : IVec S8192 32 :=
  shapeCast S8192 (extractStridedSlice S8192x1 ![0, 2] X slices_S8192x3_S8192x1_0_2) shapeCasts_S8192x1_S8192

end Cert.KernelIdeal.Gathered

end
-- ==== Proof.KernelGatherA.lean ====
/-
  The arrays the region finds in windows 0 to 2: the positive triple's head, relation and tail rows.
  Each is read off @main's host operations before the region: the gather that writes it, the row numbers it is
  given (a column of an index array, negative numbers counted from the end), and the table it reads, an argument
  that no host operation writes.
-/
import proofs.«159799_j64828236366349_1_alg».proof.Proof.KernelGatherDefs

set_option maxRecDepth 16384

noncomputable section

namespace Cert.KernelIdeal.Gathered

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 4000000 in
theorem V_v18 (c : Dev nD) :
    (V m c main_v18 : S8192x256.Idx → EReal)
      = pick (m ((c : Thread nD τ).loc main_arg2)) (col0 (m ((c : Thread nD τ).loc main_arg0))) := by
  dsimp only [V, hostOps0]
  after_results_simp
  rfl

set_option maxHeartbeats 4000000 in
theorem V_v25 (c : Dev nD) :
    (V m c main_v25 : S8192x256.Idx → EReal)
      = pick (m ((c : Thread nD τ).loc main_arg3)) (col1 (m ((c : Thread nD τ).loc main_arg0))) := by
  dsimp only [V, hostOps0]
  after_results_simp
  rfl

set_option maxHeartbeats 4000000 in
theorem V_v32 (c : Dev nD) :
    (V m c main_v32 : S8192x256.Idx → EReal)
      = pick (m ((c : Thread nD τ).loc main_arg2)) (col2 (m ((c : Thread nD τ).loc main_arg0))) := by
  dsimp only [V, hostOps0]
  after_results_simp
  rfl

end Cert.KernelIdeal.Gathered

end
-- ==== Proof.KernelGatherB.lean ====
/-
  The arrays the region finds in windows 3 to 5: the positive triple's projection rows.
  Each is read off @main's host operations before the region: the gather that writes it, the row numbers it is
  given (a column of an index array, negative numbers counted from the end), and the table it reads, an argument
  that no host operation writes.
-/
import proofs.«159799_j64828236366349_1_alg».proof.Proof.KernelGatherDefs

set_option maxRecDepth 16384

noncomputable section

namespace Cert.KernelIdeal.Gathered

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 4000000 in
theorem V_v39 (c : Dev nD) :
    (V m c main_v39 : S8192x256.Idx → EReal)
      = pick (m ((c : Thread nD τ).loc main_arg4)) (col0 (m ((c : Thread nD τ).loc main_arg0))) := by
  dsimp only [V, hostOps0]
  after_results_simp
  rfl

set_option maxHeartbeats 4000000 in
theorem V_v46 (c : Dev nD) :
    (V m c main_v46 : S8192x256.Idx → EReal)
      = pick (m ((c : Thread nD τ).loc main_arg5)) (col1 (m ((c : Thread nD τ).loc main_arg0))) := by
  dsimp only [V, hostOps0]
  after_results_simp
  rfl

set_option maxHeartbeats 4000000 in
theorem V_v53 (c : Dev nD) :
    (V m c main_v53 : S8192x256.Idx → EReal)
      = pick (m ((c : Thread nD τ).loc main_arg4)) (col2 (m ((c : Thread nD τ).loc main_arg0))) := by
  dsimp only [V, hostOps0]
  after_results_simp
  rfl

end Cert.KernelIdeal.Gathered

end
-- ==== Proof.KernelGatherC.lean ====
/-
  The arrays the region finds in windows 6 to 8: the negative triple's head, relation and tail rows.
  Each is read off @main's host operations before the region: the gather that writes it, the row numbers it is
  given (a column of an index array, negative numbers counted from the end), and the table it reads, an argument
  that no host operation writes.
-/
import proofs.«159799_j64828236366349_1_alg».proof.Proof.KernelGatherDefs

set_option maxRecDepth 16384

noncomputable section

namespace Cert.KernelIdeal.Gathered

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 4000000 in
theorem V_v60 (c : Dev nD) :
    (V m c main_v60 : S8192x256.Idx → EReal)
      = pick (m ((c : Thread nD τ).loc main_arg2)) (col0 (m ((c : Thread nD τ).loc main_arg1))) := by
  dsimp only [V, hostOps0]
  after_results_simp
  rfl

set_option maxHeartbeats 4000000 in
theorem V_v67 (c : Dev nD) :
    (V m c main_v67 : S8192x256.Idx → EReal)
      = pick (m ((c : Thread nD τ).loc main_arg3)) (col1 (m ((c : Thread nD τ).loc main_arg1))) := by
  dsimp only [V, hostOps0]
  after_results_simp
  rfl

set_option maxHeartbeats 4000000 in
theorem V_v74 (c : Dev nD) :
    (V m c main_v74 : S8192x256.Idx → EReal)
      = pick (m ((c : Thread nD τ).loc main_arg2)) (col2 (m ((c : Thread nD τ).loc main_arg1))) := by
  dsimp only [V, hostOps0]
  after_results_simp
  rfl

end Cert.KernelIdeal.Gathered

end
-- ==== Proof.KernelGatherD.lean ====
/-
  The arrays the region finds in windows 9 to 11: the negative triple's projection rows.
  Each is read off @main's host operations before the region: the gather that writes it, the row numbers it is
  given (a column of an index array, negative numbers counted from the end), and the table it reads, an argument
  that no host operation writes.
-/
import proofs.«159799_j64828236366349_1_alg».proof.Proof.KernelGatherDefs

set_option maxRecDepth 16384

noncomputable section

namespace Cert.KernelIdeal.Gathered

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 4000000 in
theorem V_v81 (c : Dev nD) :
    (V m c main_v81 : S8192x256.Idx → EReal)
      = pick (m ((c : Thread nD τ).loc main_arg4)) (col0 (m ((c : Thread nD τ).loc main_arg1))) := by
  dsimp only [V, hostOps0]
  after_results_simp
  rfl

set_option maxHeartbeats 4000000 in
theorem V_v88 (c : Dev nD) :
    (V m c main_v88 : S8192x256.Idx → EReal)
      = pick (m ((c : Thread nD τ).loc main_arg5)) (col1 (m ((c : Thread nD τ).loc main_arg1))) := by
  dsimp only [V, hostOps0]
  after_results_simp
  rfl

set_option maxHeartbeats 4000000 in
theorem V_v95 (c : Dev nD) :
    (V m c main_v95 : S8192x256.Idx → EReal)
      = pick (m ((c : Thread nD τ).loc main_arg4)) (col2 (m ((c : Thread nD τ).loc main_arg1))) := by
  dsimp only [V, hostOps0]
  after_results_simp
  rfl

end Cert.KernelIdeal.Gathered

end
-- ==== Proof.KernelGather.lean ====
/-
  The arrays the region finds in its twelve windows, each as a gather of the arguments (the four parts together).
-/
import proofs.«159799_j64828236366349_1_alg».proof.Proof.KernelGatherA
import proofs.«159799_j64828236366349_1_alg».proof.Proof.KernelGatherB
import proofs.«159799_j64828236366349_1_alg».proof.Proof.KernelGatherC
import proofs.«159799_j64828236366349_1_alg».proof.Proof.KernelGatherD
-- ==== Proof.ReferenceValue.lean ====
/-
  The reference's result, read at an entry.

  The reference gathers the same twelve arrays of 8192 rows and computes on whole arrays what the kernel computes
  block by block: every reduce runs along a row, every column of sums or lengths is spread back along the same
  row, the rest is pointwise. So entry p of its result is the loss of the twelve rows p.
-/
import proofs.«159799_j64828236366349_1_alg».proof.Proof.Gen.ReferenceIdeal.Run
import proofs.«159799_j64828236366349_1_alg».proof.Proof.LibUnitRows
import proofs.«159799_j64828236366349_1_alg».proof.Proof.Spec

set_option maxRecDepth 16384

noncomputable section

namespace Cert.ReferenceIdeal.RefValue

open Cert.ReferenceIdeal Cert.ReferenceIdeal.Gen Cert.ReferenceIdeal.Value Idealize.ShloMosaic Idealize.ShloMosaic.ValueIdx
open Idealize.ShloMosaic.StableHlo Cert.LibUnitRows Cert.MarginLoss

/-- The rows of a table picked by a vector of row numbers, a negative number counted from the end. -/
abbrev pick (tbl : FVec Ideal S100000x256 .f32) (x : IVec S8192 32) : FVec Ideal S8192x256 .f32 :=
  Host.gather gather_S100000x256_S8192x1_S8192x256_1_0_n_n_0_1_1256 tbl
    (broadcastInDim S8192x1 ![0] bcast_S8192_S8192x1_0
      (select (cmpi .slt x (broadcastInDim S8192 ![] bcast_S_S8192 (constantI S_ 32 0#32)))
        (addi x (broadcastInDim S8192 ![] bcast_S_S8192 (constantI S_ 32 100000#32))) x))

theorem hred : (⟨2, ![8192, 256]⟩ : Shape).Reduces [(1 : Fin 2)] ⟨1, ![8192]⟩ := by decide

/-- h + r · (row sums of w · h) on whole arrays. -/
abbrev liftH (h r w : FVec Ideal S8192x256 .f32) : FVec Ideal S8192x256 .f32 :=
  liftedH (R := 8192) (C := 256) reducesTo_S8192x256_S8192_d1 h_S_ bcast_S8192_S8192x1_0 bcast_S8192x1_S8192x256_0_1 h r w

theorem rowOf_liftH (h r w : FVec Ideal S8192x256 .f32) (p : Fin 8192) :
    rowOf (R := 8192) (C := 256) (liftH h r w) p
      = lifted (rowOf (R := 8192) (C := 256) h p) (rowOf (R := 8192) (C := 256) r p) (rowOf (R := 8192) (C := 256) w p) :=
  rowOf_liftedH (R := 8192) (C := 256) reducesTo_S8192x256_S8192_d1 h_S_ bcast_S8192_S8192x1_0 bcast_S8192x1_S8192x256_0_1 hred h r w p

/-- The rows' distances ‖unit a + unit b − unit c‖ on whole arrays. -/
abbrev distH (a b c : FVec Ideal S8192x256 .f32) : FVec Ideal S8192 .f32 :=
  lengthH (R := 8192) (C := 256) reducesTo_S8192x256_S8192_d1 h_S_
    (sideH (R := 8192) (C := 256) reducesTo_S8192x256_S8192_d1 h_S_ bcast_S8192_S8192x1_0 bcast_S8192x1_S8192x256_0_1 bcast_S_S8192x1 a b c 0x2B8CBCCC#32)

theorem distH_at (a b c : FVec Ideal S8192x256 .f32) (p : Fin 8192) :
    distH a b c (ix1 p)
      = gap floorLen (rowOf (R := 8192) (C := 256) a p) (rowOf (R := 8192) (C := 256) b p) (rowOf (R := 8192) (C := 256) c p) :=
  gapH_at (R := 8192) (C := 256) reducesTo_S8192x256_S8192_d1 h_S_ bcast_S8192_S8192x1_0 bcast_S8192x1_S8192x256_0_1 bcast_S_S8192x1 hred a b c 0x2B8CBCCC#32 p

/-- The reference's computation on twelve arrays of 8192 rows, in the windows' order. -/
abbrev hostLoss (a0 a1 a2 a3 a4 a5 a6 a7 a8 a9 a10 a11 : FVec Ideal S8192x256 .f32) : FVec Ideal S8192 .f32 :=
  maximumf (addf (subf (distH (liftH a0 a4 a3) a1 (liftH a2 a4 a5)) (distH (liftH a6 a10 a9) a7 (liftH a8 a10 a11)))
      (broadcastInDim S8192 ![] bcast_S_S8192 (constant (F := Ideal) S_ .f32 0x3F800000#32)))
    (broadcastInDim S8192 ![] bcast_S_S8192 (constant (F := Ideal) S_ .f32 0x00000000#32))

/-- Entry p of the reference's computation is the loss of the twelve rows p. -/
theorem hostLoss_eq (a0 a1 a2 a3 a4 a5 a6 a7 a8 a9 a10 a11 : FVec Ideal S8192x256 .f32) :
    hostLoss a0 a1 a2 a3 a4 a5 a6 a7 a8 a9 a10 a11 = lossOf a0 a1 a2 a3 a4 a5 a6 a7 a8 a9 a10 a11 := by
  funext i
  obtain ⟨p, rfl⟩ : ∃ p : Fin 8192, i = ix1 p := ⟨i 0, eq_ix1 i⟩
  show max (distH (liftH a0 a4 a3) a1 (liftH a2 a4 a5) (ix1 p) - distH (liftH a6 a10 a9) a7 (liftH a8 a10 a11) (ix1 p)
      + broadcastInDim S8192 ![] bcast_S_S8192 (constant (F := Ideal) S_ .f32 0x3F800000#32) (ix1 p))
    (broadcastInDim S8192 ![] bcast_S_S8192 (constant (F := Ideal) S_ .f32 0x00000000#32) (ix1 p)) = _
  rw [distH_at, distH_at, rowOf_liftH, rowOf_liftH, rowOf_liftH, rowOf_liftH,
    Cert.LibHostBroadcast.scalar_at, Cert.LibHostBroadcast.scalar_at, constant_apply, constant_apply]
  rfl

/-- The twelve gathered arrays as the reference's run names them: the positive triple's rows from the first index
    array, the negative triple's from the second; heads and tails from the entity tables, relations from the relation
    tables. -/
theorem run_term_eq (V0 : Valuation τ sig (Elt Ideal)) :
    maximumf (addf (subf (Host.sqrt (Host.reduceAdd (mulf (res_main_v145 V0) (res_main_v145 V0)) (constant S_ .f32 0x00000000#32) reducesTo_S8192x256_S8192_d1 h_S_)) (Host.sqrt (Host.reduceAdd (mulf (res_main_v174 V0) (res_main_v174 V0)) (constant S_ .f32 0x00000000#32) reducesTo_S8192x256_S8192_d1 h_S_))) (broadcastInDim S8192 ![] bcast_S_S8192 (constant S_ .f32 0x3F800000#32))) (broadcastInDim S8192 ![] bcast_S_S8192 (constant S_ .f32 0x00000000#32))
      = hostLoss (res_main_v12 V0) (res_main_v19 V0) (res_main_v26 V0)
          (pick (V0 (Proc.devRef .tc main_arg4)) (res_main_v1 V0)) (res_main_v40 V0) (pick (V0 (Proc.devRef .tc main_arg4)) (res_main_v5 V0))
          (res_main_v72 V0) (res_main_v79 V0) (res_main_v86 V0)
          (pick (V0 (Proc.devRef .tc main_arg4)) (res_main_v61 V0)) (res_main_v100 V0) (pick (V0 (Proc.devRef .tc main_arg4)) (res_main_v65 V0)) := rfl

end Cert.ReferenceIdeal.RefValue

end
-- ==== Proof.lean ====
/-
  The certificate of the margin-loss kernel against its array reference, on the extended reals.

  Both programs gather the same twelve arrays of 8192 rows of length 256 from the four tables — for a positive and a
  negative triple: head, relation, tail and their projection rows — and compute, row by row,

      max ( ‖u(h + rp·⟨hp,h⟩) + u(r) − u(t + rp·⟨tp,t⟩)‖ of the positive triple
            − the same of the negative triple + 1 ) 0,          u(x) = x / max ‖x‖ ε.

  The kernel does it on 16 blocks of 512 rows, the reference on the whole arrays. Every sum runs along a row and every
  column of sums or lengths is spread back along the same row, so entry p of either result is one function of rows p
  of the twelve arrays (Spec.lean's `lossOf`): the kernel's block by block (KernelBlock.lean, KernelValue.lean), the
  reference's on whole arrays (ReferenceValue.lean). The two sides apply the same operations in the same order to the
  same numbers, so no law of arithmetic is needed and the inputs' finiteness is not used. The twelve arrays are the
  same gathers of the arguments on both sides (KernelGather.lean), and the arguments agree.
  The idealization rewrote nothing, so its conjunct is trivial; the three frames are the generated ones.
-/
import proofs.«159799_j64828236366349_1_alg».proof.Defs
import proofs.«159799_j64828236366349_1_alg».proof.Proof.Gen.Kernel
import proofs.«159799_j64828236366349_1_alg».proof.Proof.Gen.Kernel.Skeleton
import proofs.«159799_j64828236366349_1_alg».proof.Proof.Gen.Kernel.Launch
import proofs.«159799_j64828236366349_1_alg».proof.Proof.Gen.Kernel.Points
import proofs.«159799_j64828236366349_1_alg».proof.Proof.Gen.Kernel.Frame
import proofs.«159799_j64828236366349_1_alg».proof.Proof.Gen.KernelIdeal
import proofs.«159799_j64828236366349_1_alg».proof.Proof.Gen.KernelIdeal.Skeleton
import proofs.«159799_j64828236366349_1_alg».proof.Proof.Gen.KernelIdeal.Launch
import proofs.«159799_j64828236366349_1_alg».proof.Proof.Gen.KernelIdeal.Points
import proofs.«159799_j64828236366349_1_alg».proof.Proof.Gen.KernelIdeal.Frame
import proofs.«159799_j64828236366349_1_alg».proof.Proof.Gen.ReferenceIdeal
import proofs.«159799_j64828236366349_1_alg».proof.Proof.Gen.KernelIdeal.Value
import proofs.«159799_j64828236366349_1_alg».proof.Proof.Gen.ReferenceIdeal.Run
import proofs.«159799_j64828236366349_1_alg».proof.Proof.Gen.Pre_finite_inputs
import proofs.«159799_j64828236366349_1_alg».proof.Proof.KernelValue
import proofs.«159799_j64828236366349_1_alg».proof.Proof.KernelGather
import proofs.«159799_j64828236366349_1_alg».proof.Proof.ReferenceValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The reference's twelve gathered arrays are the kernel's, once the six arguments are the same arrays. -/
theorem gathered_same (V0 : Valuation Cert.ReferenceIdeal.τ Cert.ReferenceIdeal.sig (Elt Ideal))
    (X Y : IVec Cert.KernelIdeal.S8192x3 32) (E Rl Ep Rp : FVec Ideal Cert.KernelIdeal.S100000x256 .f32)
    (h0 : V0 (Proc.devRef .tc Cert.ReferenceIdeal.main_arg0) = X) (h1 : V0 (Proc.devRef .tc Cert.ReferenceIdeal.main_arg1) = Y)
    (h2 : V0 (Proc.devRef .tc Cert.ReferenceIdeal.main_arg2) = E) (h3 : V0 (Proc.devRef .tc Cert.ReferenceIdeal.main_arg3) = Rl)
    (h4 : V0 (Proc.devRef .tc Cert.ReferenceIdeal.main_arg4) = Ep) (h5 : V0 (Proc.devRef .tc Cert.ReferenceIdeal.main_arg5) = Rp) :
    Cert.MarginLoss.lossOf (Cert.ReferenceIdeal.Value.res_main_v12 V0) (Cert.ReferenceIdeal.Value.res_main_v19 V0) (Cert.ReferenceIdeal.Value.res_main_v26 V0)
        (Cert.ReferenceIdeal.RefValue.pick (V0 (Proc.devRef .tc Cert.ReferenceIdeal.main_arg4)) (Cert.ReferenceIdeal.Value.res_main_v1 V0)) (Cert.ReferenceIdeal.Value.res_main_v40 V0)
        (Cert.ReferenceIdeal.RefValue.pick (V0 (Proc.devRef .tc Cert.ReferenceIdeal.main_arg4)) (Cert.ReferenceIdeal.Value.res_main_v5 V0))
        (Cert.ReferenceIdeal.Value.res_main_v72 V0) (Cert.ReferenceIdeal.Value.res_main_v79 V0) (Cert.ReferenceIdeal.Value.res_main_v86 V0)
        (Cert.ReferenceIdeal.RefValue.pick (V0 (Proc.devRef .tc Cert.ReferenceIdeal.main_arg4)) (Cert.ReferenceIdeal.Value.res_main_v61 V0)) (Cert.ReferenceIdeal.Value.res_main_v100 V0)
        (Cert.ReferenceIdeal.RefValue.pick (V0 (Proc.devRef .tc Cert.ReferenceIdeal.main_arg4)) (Cert.ReferenceIdeal.Value.res_main_v65 V0))
      = Cert.MarginLoss.lossOf
        (Cert.KernelIdeal.Gathered.pick E (Cert.KernelIdeal.Gathered.col0 X))
        (Cert.KernelIdeal.Gathered.pick Rl (Cert.KernelIdeal.Gathered.col1 X))
        (Cert.KernelIdeal.Gathered.pick E (Cert.KernelIdeal.Gathered.col2 X))
        (Cert.KernelIdeal.Gathered.pick Ep (Cert.KernelIdeal.Gathered.col0 X))
        (Cert.KernelIdeal.Gathered.pick Rp (Cert.KernelIdeal.Gathered.col1 X))
        (Cert.KernelIdeal.Gathered.pick Ep (Cert.KernelIdeal.Gathered.col2 X))
        (Cert.KernelIdeal.Gathered.pick E (Cert.KernelIdeal.Gathered.col0 Y))
        (Cert.KernelIdeal.Gathered.pick Rl (Cert.KernelIdeal.Gathered.col1 Y))
        (Cert.KernelIdeal.Gathered.pick E (Cert.KernelIdeal.Gathered.col2 Y))
        (Cert.KernelIdeal.Gathered.pick Ep (Cert.KernelIdeal.Gathered.col0 Y))
        (Cert.KernelIdeal.Gathered.pick Rp (Cert.KernelIdeal.Gathered.col1 Y))
        (Cert.KernelIdeal.Gathered.pick Ep (Cert.KernelIdeal.Gathered.col2 Y)) := by
  subst h0 h1 h2 h3 h4 h5
  rfl

/-- The same with the kernel's twelve arrays named: whatever arrays are those gathers of the arguments. -/
theorem gathered_same_of (V0 : Valuation Cert.ReferenceIdeal.τ Cert.ReferenceIdeal.sig (Elt Ideal))
    (X Y : IVec Cert.KernelIdeal.S8192x3 32) (E Rl Ep Rp : FVec Ideal Cert.KernelIdeal.S100000x256 .f32)
    (a0 a1 a2 a3 a4 a5 a6 a7 a8 a9 a10 a11 : Cert.KernelIdeal.S8192x256.Idx → EReal)
    (h0 : V0 (Proc.devRef .tc Cert.ReferenceIdeal.main_arg0) = X) (h1 : V0 (Proc.devRef .tc Cert.ReferenceIdeal.main_arg1) = Y)
    (h2 : V0 (Proc.devRef .tc Cert.ReferenceIdeal.main_arg2) = E) (h3 : V0 (Proc.devRef .tc Cert.ReferenceIdeal.main_arg3) = Rl)
    (h4 : V0 (Proc.devRef .tc Cert.ReferenceIdeal.main_arg4) = Ep) (h5 : V0 (Proc.devRef .tc Cert.ReferenceIdeal.main_arg5) = Rp)
    (g0 : a0 = Cert.KernelIdeal.Gathered.pick E (Cert.KernelIdeal.Gathered.col0 X))
    (g1 : a1 = Cert.KernelIdeal.Gathered.pick Rl (Cert.KernelIdeal.Gathered.col1 X))
    (g2 : a2 = Cert.KernelIdeal.Gathered.pick E (Cert.KernelIdeal.Gathered.col2 X))
    (g3 : a3 = Cert.KernelIdeal.Gathered.pick Ep (Cert.KernelIdeal.Gathered.col0 X))
    (g4 : a4 = Cert.KernelIdeal.Gathered.pick Rp (Cert.KernelIdeal.Gathered.col1 X))
    (g5 : a5 = Cert.KernelIdeal.Gathered.pick Ep (Cert.KernelIdeal.Gathered.col2 X))
    (g6 : a6 = Cert.KernelIdeal.Gathered.pick E (Cert.KernelIdeal.Gathered.col0 Y))
    (g7 : a7 = Cert.KernelIdeal.Gathered.pick Rl (Cert.KernelIdeal.Gathered.col1 Y))
    (g8 : a8 = Cert.KernelIdeal.Gathered.pick E (Cert.KernelIdeal.Gathered.col2 Y))
    (g9 : a9 = Cert.KernelIdeal.Gathered.pick Ep (Cert.KernelIdeal.Gathered.col0 Y))
    (g10 : a10 = Cert.KernelIdeal.Gathered.pick Rp (Cert.KernelIdeal.Gathered.col1 Y))
    (g11 : a11 = Cert.KernelIdeal.Gathered.pick Ep (Cert.KernelIdeal.Gathered.col2 Y)) :
    Cert.MarginLoss.lossOf (Cert.ReferenceIdeal.Value.res_main_v12 V0) (Cert.ReferenceIdeal.Value.res_main_v19 V0) (Cert.ReferenceIdeal.Value.res_main_v26 V0)
        (Cert.ReferenceIdeal.RefValue.pick (V0 (Proc.devRef .tc Cert.ReferenceIdeal.main_arg4)) (Cert.ReferenceIdeal.Value.res_main_v1 V0)) (Cert.ReferenceIdeal.Value.res_main_v40 V0)
        (Cert.ReferenceIdeal.RefValue.pick (V0 (Proc.devRef .tc Cert.ReferenceIdeal.main_arg4)) (Cert.ReferenceIdeal.Value.res_main_v5 V0))
        (Cert.ReferenceIdeal.Value.res_main_v72 V0) (Cert.ReferenceIdeal.Value.res_main_v79 V0) (Cert.ReferenceIdeal.Value.res_main_v86 V0)
        (Cert.ReferenceIdeal.RefValue.pick (V0 (Proc.devRef .tc Cert.ReferenceIdeal.main_arg4)) (Cert.ReferenceIdeal.Value.res_main_v61 V0)) (Cert.ReferenceIdeal.Value.res_main_v100 V0)
        (Cert.ReferenceIdeal.RefValue.pick (V0 (Proc.devRef .tc Cert.ReferenceIdeal.main_arg4)) (Cert.ReferenceIdeal.Value.res_main_v65 V0))
      = Cert.MarginLoss.lossOf a0 a1 a2 a3 a4 a5 a6 a7 a8 a9 a10 a11 := by
  subst g0 g1 g2 g3 g4 g5 g6 g7 g8 g9 g10 g11
  exact gathered_same V0 X Y E Rl Ep Rp h0 h1 h2 h3 h4 h5

namespace Claims

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at the loss of the twelve gathered arrays' rows. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.RefValue.run_term_eq, Cert.ReferenceIdeal.RefValue.hostLoss_eq]
  exact gathered_same_of (launchContents m' c)
    (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (Cert.KernelIdeal.Gen.V m c Cert.KernelIdeal.main_v18) (Cert.KernelIdeal.Gen.V m c Cert.KernelIdeal.main_v25) (Cert.KernelIdeal.Gen.V m c Cert.KernelIdeal.main_v32) (Cert.KernelIdeal.Gen.V m c Cert.KernelIdeal.main_v39) (Cert.KernelIdeal.Gen.V m c Cert.KernelIdeal.main_v46) (Cert.KernelIdeal.Gen.V m c Cert.KernelIdeal.main_v53) (Cert.KernelIdeal.Gen.V m c Cert.KernelIdeal.main_v60) (Cert.KernelIdeal.Gen.V m c Cert.KernelIdeal.main_v67) (Cert.KernelIdeal.Gen.V m c Cert.KernelIdeal.main_v74) (Cert.KernelIdeal.Gen.V m c Cert.KernelIdeal.main_v81) (Cert.KernelIdeal.Gen.V m c Cert.KernelIdeal.main_v88) (Cert.KernelIdeal.Gen.V m c Cert.KernelIdeal.main_v95)
    h0 h1 h2 h3 h4 h5
    (Cert.KernelIdeal.Gathered.V_v18 m c) (Cert.KernelIdeal.Gathered.V_v25 m c) (Cert.KernelIdeal.Gathered.V_v32 m c) (Cert.KernelIdeal.Gathered.V_v39 m c) (Cert.KernelIdeal.Gathered.V_v46 m c) (Cert.KernelIdeal.Gathered.V_v53 m c) (Cert.KernelIdeal.Gathered.V_v60 m c) (Cert.KernelIdeal.Gathered.V_v67 m c) (Cert.KernelIdeal.Gathered.V_v74 m c) (Cert.KernelIdeal.Gathered.V_v81 m c) (Cert.KernelIdeal.Gathered.V_v88 m c) (Cert.KernelIdeal.Gathered.V_v95 m c)

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
